-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x384 : Shape := ⟨3, ![4, 256, 384]⟩
abbrev S4x384 : Shape := ⟨2, ![4, 384]⟩
abbrev S100000x384 : Shape := ⟨2, ![100000, 384]⟩
abbrev S2000x384 : Shape := ⟨2, ![2000, 384]⟩
abbrev S_ : Shape := ⟨0, ![]⟩

class Facts : Prop where
  bcast_S_S4x256x384 : S_.BroadcastsInDim S4x256x384 (![] : Fin 0 → Fin S4x256x384.rank)
  reducesTo_S4x256x384_S_d0_1_2 : S4x256x384.ReducesTo [0, 1, 2] S_
  h_S_ : 0 < S_.numel
  bcast_S_S4x384 : S_.BroadcastsInDim S4x384 (![] : Fin 0 → Fin S4x384.rank)
  reducesTo_S4x384_S_d0_1 : S4x384.ReducesTo [0, 1] S_
  bcast_S_S100000x384 : S_.BroadcastsInDim S100000x384 (![] : Fin 0 → Fin S100000x384.rank)
  reducesTo_S100000x384_S_d0_1 : S100000x384.ReducesTo [0, 1] S_
  bcast_S_S2000x384 : S_.BroadcastsInDim S2000x384 (![] : Fin 0 → Fin S2000x384.rank)
  reducesTo_S2000x384_S_d0_1 : S2000x384.ReducesTo [0, 1] S_

variable [Facts]

def fn_part1 {F : FTy → Type} [FloatOps F] (main_v13 : IVec S_ 1) (main_v16 : IVec S2000x384 1) : IVec S_ 1 :=
  let main_c_5 : IVec S_ 1 := constantI S_ 1 1#1
  let main_v17 : IVec S_ 1 := (fun x v => Host.reduce IntOp.andi x v reducesTo_S2000x384_S_d0_1 h_S_) main_v16 main_c_5
  let main_v18 : IVec S_ 1 := andi main_v13 main_v17
  main_v18

def fn {F : FTy → Type} [FloatOps F] (main_arg0 : FVec F S4x256x384 .f32) (main_arg1 : FVec F S4x384 .f32) (main_arg2 : FVec F S100000x384 .f32) (main_arg3 : FVec F S2000x384 .f32) : IVec S_ 1 :=
  let main_v0 : FVec F S4x256x384 .f32 := Host.absf main_arg0
  let main_cst : FVec F S_ .f32 := constant S_ .f32 0x7F800000#32
  let main_v1 : FVec F S4x256x384 .f32 := broadcastInDim S4x256x384 ![] bcast_S_S4x256x384 main_cst
  let main_v2 : IVec S4x256x384 1 := cmpf .olt main_v0 main_v1
  let main_c : IVec S_ 1 := constantI S_ 1 1#1
  let main_v3 : IVec S_ 1 := (fun x v => Host.reduce IntOp.andi x v reducesTo_S4x256x384_S_d0_1_2 h_S_) main_v2 main_c
  let main_v4 : FVec F S4x384 .f32 := Host.absf main_arg1
  let main_cst_0 : FVec F S_ .f32 := constant S_ .f32 0x7F800000#32
  let main_v5 : FVec F S4x384 .f32 := broadcastInDim S4x384 ![] bcast_S_S4x384 main_cst_0
  let main_v6 : IVec S4x384 1 := cmpf .olt main_v4 main_v5
  let main_c_1 : IVec S_ 1 := constantI S_ 1 1#1
  let main_v7 : IVec S_ 1 := (fun x v => Host.reduce IntOp.andi x v reducesTo_S4x384_S_d0_1 h_S_) main_v6 main_c_1
  let main_v8 : IVec S_ 1 := andi main_v3 main_v7
  let main_v9 : FVec F S100000x384 .f32 := Host.absf main_arg2
  let main_cst_2 : FVec F S_ .f32 := constant S_ .f32 0x7F800000#32
  let main_v10 : FVec F S100000x384 .f32 := broadcastInDim S100000x384 ![] bcast_S_S100000x384 main_cst_2
  let main_v11 : IVec S100000x384 1 := cmpf .olt main_v9 main_v10
  let main_c_3 : IVec S_ 1 := constantI S_ 1 1#1
  let main_v12 : IVec S_ 1 := (fun x v => Host.reduce IntOp.andi x v reducesTo_S100000x384_S_d0_1 h_S_) main_v11 main_c_3
  let main_v13 : IVec S_ 1 := andi main_v8 main_v12
  let main_v14 : FVec F S2000x384 .f32 := Host.absf main_arg3
  let main_cst_4 : FVec F S_ .f32 := constant S_ .f32 0x7F800000#32
  let main_v15 : FVec F S2000x384 .f32 := broadcastInDim S2000x384 ![] bcast_S_S2000x384 main_cst_4
  let main_v16 : IVec S2000x384 1 := cmpf .olt main_v14 main_v15
  fn_part1 (F := F) main_v13 main_v16
-- ==== Kernel.lean ====
abbrev S4x256x384 : Shape := ⟨3, ![4, 256, 384]⟩
abbrev S4x384 : Shape := ⟨2, ![4, 384]⟩
abbrev S100000x384 : Shape := ⟨2, ![100000, 384]⟩
abbrev S2000x384 : Shape := ⟨2, ![2000, 384]⟩
abbrev S_ : Shape := ⟨0, ![]⟩
abbrev S4x256 : Shape := ⟨2, ![4, 256]⟩
abbrev S4x256x1 : Shape := ⟨3, ![4, 256, 1]⟩
abbrev S4 : Shape := ⟨1, ![4]⟩
abbrev S4x1 : Shape := ⟨2, ![4, 1]⟩
abbrev S1024x384 : Shape := ⟨2, ![1024, 384]⟩
abbrev S384x1024 : Shape := ⟨2, ![384, 1024]⟩
abbrev S1024 : Shape := ⟨1, ![1024]⟩
abbrev S2x1x1024 : Shape := ⟨3, ![2, 1, 1024]⟩
abbrev S1x1x1024 : Shape := ⟨3, ![1, 1, 1024]⟩
abbrev S1x1024 : Shape := ⟨2, ![1, 1024]⟩
abbrev S2000 : Shape := ⟨1, ![2000]⟩
abbrev S2000x1 : Shape := ⟨2, ![2000, 1]⟩
abbrev S2000x1024 : Shape := ⟨2, ![2000, 1024]⟩
abbrev S1x2000 : Shape := ⟨2, ![1, 2000]⟩
abbrev S4x2000 : Shape := ⟨2, ![4, 2000]⟩
abbrev S384x2000 : Shape := ⟨2, ![384, 2000]⟩

abbrev nBuf : Space → Nat
  | .hbm => 72
  | .vmem => 5
  | .smem => 0
  | _ => 0

abbrev bufTy : (tb : Table) → Fin (tcTables nBuf tb) → BufTy
  | .hbm, ⟨0, _⟩ => ⟨S4x256x384, .f32⟩
  | .hbm, ⟨1, _⟩ => ⟨S4x384, .f32⟩
  | .hbm, ⟨2, _⟩ => ⟨S100000x384, .f32⟩
  | .hbm, ⟨3, _⟩ => ⟨S2000x384, .f32⟩
  | .hbm, ⟨4, _⟩ => ⟨S4x256x384, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S4x256x384, .f32⟩
  | .hbm, ⟨13, _⟩ => ⟨S4x256x384, .f32⟩
  | .hbm, ⟨14, _⟩ => ⟨S4x384, .f32⟩
  | .hbm, ⟨15, _⟩ => ⟨S_, .f32⟩
  | .hbm, ⟨16, _⟩ => ⟨S4, .f32⟩
  | .hbm, ⟨17, _⟩ => ⟨S4x1, .f32⟩
  | .hbm, ⟨18, _⟩ => ⟨S4x1, .f32⟩
  | .hbm, ⟨19, _⟩ => ⟨S_, .f32⟩
  | .hbm, ⟨20, _⟩ => ⟨S4x1, .f32⟩
  | .hbm, ⟨21, _⟩ => ⟨S4x1, .f32⟩
  | .hbm, ⟨22, _⟩ => ⟨S4x384, .f32⟩
  | .hbm, ⟨23, _⟩ => ⟨S4x384, .f32⟩
  | .hbm, ⟨24, _⟩ => ⟨S1024x384, .f32⟩
  | .hbm, ⟨25, _⟩ => ⟨S384x1024, .f32⟩
  | .hbm, ⟨26, _⟩ => ⟨S384x1024, .bf16⟩
  | .hbm, ⟨27, _⟩ => ⟨S384x1024, .f32⟩
  | .hbm, ⟨28, _⟩ => ⟨S_, .f32⟩
  | .hbm, ⟨29, _⟩ => ⟨S1024, .f32⟩
  | .hbm, ⟨30, _⟩ => ⟨S2x1x1024, .f32⟩
  | .hbm, ⟨31, _⟩ => ⟨S_, .f32⟩
  | .hbm, ⟨32, _⟩ => ⟨S1x1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S4x256, .f32⟩
  | .hbm, ⟨40, _⟩ => ⟨S_, .f32⟩
  | .hbm, ⟨41, _⟩ => ⟨S4, .f32⟩
  | .hbm, ⟨42, _⟩ => ⟨S4x384, .f32⟩
  | .hbm, ⟨43, _⟩ => ⟨S_, .f32⟩
  | .hbm, ⟨44, _⟩ => ⟨S4, .f32⟩
  | .hbm, ⟨45, _⟩ => ⟨S2000x384, .f32⟩
  | .hbm, ⟨46, _⟩ => ⟨S_, .f32⟩
  | .hbm, ⟨47, _⟩ => ⟨S2000, .f32⟩
  | .hbm, ⟨48, _⟩ => ⟨S4x1, .f32⟩
  | .hbm, ⟨49, _⟩ => ⟨S1x2000, .f32⟩
  | .hbm, ⟨50, _⟩ => ⟨S4x2000, .f32⟩
  | .hbm, ⟨51, _⟩ => ⟨S4x2000, .f32⟩
  | .hbm, ⟨52, _⟩ => ⟨S4x2000, .f32⟩
  | .hbm, ⟨53, _⟩ => ⟨S384x2000, .f32⟩
  | .hbm, ⟨54, _⟩ => ⟨S4x2000, .f32⟩
  | .hbm, ⟨55, _⟩ => ⟨S_, .f32⟩
  | .hbm, ⟨56, _⟩ => ⟨S4x2000, .f32⟩
  | .hbm, ⟨57, _⟩ => ⟨S4x2000, .f32⟩
  | .hbm, ⟨58, _⟩ => ⟨S4x2000, .f32⟩
  | .hbm, ⟨59, _⟩ => ⟨S_, .f32⟩
  | .hbm, ⟨60, _⟩ => ⟨S4x2000, .f32⟩
  | .hbm, ⟨61, _⟩ => ⟨S4x2000, .f32⟩
  | .hbm, ⟨62, _⟩ => ⟨S4x2000, .f32⟩
  | .hbm, ⟨63, _⟩ => ⟨S_, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S4, .f32⟩
  | .local _ .vmem, ⟨0, _⟩ => ⟨S384x1024, .bf16⟩
  | .local _ .vmem, ⟨1, _⟩ => ⟨S2000x384, .f32⟩
  | .local _ .vmem, ⟨2, _⟩ => ⟨S2000x384, .f32⟩
  | .local _ .vmem, ⟨3, _⟩ => ⟨S1x1x1024, .f32⟩
  | .local _ .vmem, ⟨4, _⟩ => ⟨S1x1x1024, .f32⟩
  | _, _ => ⟨S4x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x256x384_S4x256_d2 : S4x256x384.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x384_0_1_2 : S4x256x1.BroadcastsInDim S4x256x384 (![0, 1, 2] : Fin 3 → Fin S4x256x384.rank)
  reducesTo_S4x384_S4_d1 : S4x384.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x384_0_1 : S4x1.BroadcastsInDim S4x384 (![0, 1] : Fin 2 → Fin S4x384.rank)
  shapeCasts_S4x256x384_S1024x384 : S4x256x384.ShapeCasts S1024x384
  transposes_S1024x384_S384x1024_1_0 : S1024x384.Transposes [1, 0] S384x1024
  bitsLt_bf16_f32 : FTy.bits .bf16 < FTy.bits .f32
  reducesTo_S384x1024_S1024_d0 : S384x1024.ReducesTo [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  inb_S2000x384_S2000x384_0_0 : ∀ a, (![0, 0] : Fin 2 → Nat) a + S2000x384.size a ≤ S2000x384.size a
  h_S2000x384 : 0 < S2000x384.numel
  reduces_S2000x384_S2000 : S2000x384.Reduces [1] S2000
  shapeCasts_S2000_S2000x1 : S2000.ShapeCasts S2000x1
  broadcasts_S2000x1_S2000x1024 : S2000x1.Broadcasts S2000x1024
  reduces_S2000x1024_S1024 : S2000x1024.Reduces [0] S1024
  shapeCasts_S1024_S1x1024 : S1024.ShapeCasts S1x1024
  reducesTo_S2x1x1024_S1x1024_d0 : S2x1x1024.ReducesTo [0] S1x1024
  shapeCasts_S1x1024_S1024 : S1x1024.ShapeCasts S1024
  bcast_S_S1024 : S_.BroadcastsInDim S1024 (![] : Fin 0 → Fin S1024.rank)
  shapeCasts_S1024_S4x256 : S1024.ShapeCasts S4x256
  reducesTo_S4x256_S4_d1 : S4x256.ReducesTo [1] S4
  reducesTo_S2000x384_S2000_d1 : S2000x384.ReducesTo [1] S2000
  bcast_S2000_S1x2000_1 : S2000.BroadcastsInDim S1x2000 (![1] : Fin 1 → Fin S1x2000.rank)
  bcast_S4x1_S4x2000_0_1 : S4x1.BroadcastsInDim S4x2000 (![0, 1] : Fin 2 → Fin S4x2000.rank)
  bcast_S1x2000_S4x2000_0_1 : S1x2000.BroadcastsInDim S4x2000 (![0, 1] : Fin 2 → Fin S4x2000.rank)
  transposes_S2000x384_S384x2000_1_0 : S2000x384.Transposes [1, 0] S384x2000
  bcast_S_S4x2000 : S_.BroadcastsInDim S4x2000 (![] : Fin 0 → Fin S4x2000.rank)
  reducesTo_S4x2000_S4_d1 : S4x2000.ReducesTo [1] S4
  bcast_S_S4 : S_.BroadcastsInDim S4 (![] : Fin 0 → Fin S4.rank)
  dot_S2000x384_S384x1024_S2000x1024_1_0_0_1_n_n_wf : DotDims.WF S2000x384 S384x1024 S2000x1024 [1] [0] [0] [1] [] []
  dot_S4x384_S384x2000_S4x2000_1_0_0_1_n_n_wf : DotDims.WF S4x384 S384x2000 S4x2000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x1024.size a ≤ S384x1024.size a
  hwx0_0 : ∀ i : grid0.Coords, EltTy.bits .bf16 = 32 ∨ (Rect.block (s := S384x1024) S384x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x384.size a ≤ S100000x384.size a
  hwx0_1 : ∀ i : grid0.Coords, EltTy.bits .f32 = 32 ∨ (Rect.block (s := S100000x384) S2000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x1024.size a
  hwx0_2 : ∀ i : grid0.Coords, EltTy.bits .f32 = 32 ∨ (Rect.block (s := S2x1x1024) S1x1x1024.size (cc0_transform_2 i) (hinb0_2 i)).WholeWords (EltTy.packing .f32)

variable [Facts₀]

def dot_S2000x384_S384x1024_S2000x1024_1_0_0_1_n_n : DotDims S2000x384 S384x1024 S2000x1024 where
  lhsContracting := [1]
  rhsContracting := [0]
  lhsNonContracting := [0]
  rhsNonContracting := [1]
  lhsBatch := []
  rhsBatch := []
  wf := dot_S2000x384_S384x1024_S2000x1024_1_0_0_1_n_n_wf
def dot_S4x384_S384x2000_S4x2000_1_0_0_1_n_n : DotDims S4x384 S384x2000 S4x2000 where
  lhsContracting := [1]
  rhsContracting := [0]
  lhsNonContracting := [0]
  rhsNonContracting := [1]
  lhsBatch := []
  rhsBatch := []
  wf := dot_S4x384_S384x2000_S4x2000_1_0_0_1_n_n_wf

abbrev win0_0 : Pipeline.Window sig grid0 :=
  Pipeline.Window.ofSpec (Memref.whole main_v12) S384x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x384 : Shape := ⟨3, ![4, 256, 384]⟩
abbrev S4x384 : Shape := ⟨2, ![4, 384]⟩
abbrev S100000x384 : Shape := ⟨2, ![100000, 384]⟩
abbrev S2000x384 : Shape := ⟨2, ![2000, 384]⟩
abbrev S_ : Shape := ⟨0, ![]⟩
abbrev S4x256 : Shape := ⟨2, ![4, 256]⟩
abbrev S4x256x1 : Shape := ⟨3, ![4, 256, 1]⟩
abbrev S4 : Shape := ⟨1, ![4]⟩
abbrev S4x1 : Shape := ⟨2, ![4, 1]⟩
abbrev S100000 : Shape := ⟨1, ![100000]⟩
abbrev S1x1x100000 : Shape := ⟨3, ![1, 1, 100000]⟩
abbrev S4x256x100000 : Shape := ⟨3, ![4, 256, 100000]⟩
abbrev S2000 : Shape := ⟨1, ![2000]⟩
abbrev S1x2000 : Shape := ⟨2, ![1, 2000]⟩
abbrev S4x2000 : Shape := ⟨2, ![4, 2000]⟩
abbrev S384x2000 : Shape := ⟨2, ![384, 2000]⟩

abbrev nBuf : Space → Nat
  | .hbm => 78
  | .vmem => 0
  | .smem => 0
  | _ => 0

abbrev bufTy : (tb : Table) → Fin (tcTables nBuf tb) → BufTy
  | .hbm, ⟨0, _⟩ => ⟨S4x256x384, .f32⟩
  | .hbm, ⟨1, _⟩ => ⟨S4x384, .f32⟩
  | .hbm, ⟨2, _⟩ => ⟨S100000x384, .f32⟩
  | .hbm, ⟨3, _⟩ => ⟨S2000x384, .f32⟩
  | .hbm, ⟨4, _⟩ => ⟨S4x256x384, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S4x256x384, .f32⟩
  | .hbm, ⟨13, _⟩ => ⟨S4x256x384, .f32⟩
  | .hbm, ⟨14, _⟩ => ⟨S4x384, .f32⟩
  | .hbm, ⟨15, _⟩ => ⟨S_, .f32⟩
  | .hbm, ⟨16, _⟩ => ⟨S4, .f32⟩
  | .hbm, ⟨17, _⟩ => ⟨S4x1, .f32⟩
  | .hbm, ⟨18, _⟩ => ⟨S4x1, .f32⟩
  | .hbm, ⟨19, _⟩ => ⟨S_, .f32⟩
  | .hbm, ⟨20, _⟩ => ⟨S4x1, .f32⟩
  | .hbm, ⟨21, _⟩ => ⟨S4x1, .f32⟩
  | .hbm, ⟨22, _⟩ => ⟨S4x384, .f32⟩
  | .hbm, ⟨23, _⟩ => ⟨S4x384, .f32⟩
  | .hbm, ⟨24, _⟩ => ⟨S4x256x384, .f32⟩
  | .hbm, ⟨25, _⟩ => ⟨S_, .f32⟩
  | .hbm, ⟨26, _⟩ => ⟨S4x256, .f32⟩
  | .hbm, ⟨27, _⟩ => ⟨S100000x384, .f32⟩
  | .hbm, ⟨28, _⟩ => ⟨S_, .f32⟩
  | .hbm, ⟨29, _⟩ => ⟨S100000, .f32⟩
  | .hbm, ⟨30, _⟩ => ⟨S4x256x1, .f32⟩
  | .hbm, ⟨31, _⟩ => ⟨S1x1x100000, .f32⟩
  | .hbm, ⟨32, _⟩ => ⟨S4x256x100000, .f32⟩
  | .hbm, ⟨33, _⟩ => ⟨S4x256x100000, .f32⟩
  | .hbm, ⟨34, _⟩ => ⟨S4x256x100000, .f32⟩
  | .hbm, ⟨35, _⟩ => ⟨S4x256x100000, .f32⟩
  | .hbm, ⟨36, _⟩ => ⟨S_, .f32⟩
  | .hbm, ⟨37, _⟩ => ⟨S4x256x100000, .f32⟩
  | .hbm, ⟨38, _⟩ => ⟨S4x256x100000, .f32⟩
  | .hbm, ⟨39, _⟩ => ⟨S4x256x100000, .f32⟩
  | .hbm, ⟨40, _⟩ => ⟨S_, .f32⟩
  | .hbm, ⟨41, _⟩ => ⟨S4x256x100000, .f32⟩
  | .hbm, ⟨42, _⟩ => ⟨S4x256x100000, .f32⟩
  | .hbm, ⟨43, _⟩ => ⟨S4x256x100000, .f32⟩
  | .hbm, ⟨44, _⟩ => ⟨S_, .f32⟩
  | .hbm, ⟨45, _⟩ => ⟨S4x256, .f32⟩
  | .hbm, ⟨46, _⟩ => ⟨S_, .f32⟩
  | .hbm, ⟨47, _⟩ => ⟨S4, .f32⟩
  | .hbm, ⟨48, _⟩ => ⟨S4x384, .f32⟩
  | .hbm, ⟨49, _⟩ => ⟨S_, .f32⟩
  | .hbm, ⟨50, _⟩ => ⟨S4, .f32⟩
  | .hbm, ⟨51, _⟩ => ⟨S2000x384, .f32⟩
  | .hbm, ⟨52, _⟩ => ⟨S_, .f32⟩
  | .hbm, ⟨53, _⟩ => ⟨S2000, .f32⟩
  | .hbm, ⟨54, _⟩ => ⟨S4x1, .f32⟩
  | .hbm, ⟨55, _⟩ => ⟨S1x2000, .f32⟩
  | .hbm, ⟨56, _⟩ => ⟨S4x2000, .f32⟩
  | .hbm, ⟨57, _⟩ => ⟨S4x2000, .f32⟩
  | .hbm, ⟨58, _⟩ => ⟨S4x2000, .f32⟩
  | .hbm, ⟨59, _⟩ => ⟨S384x2000, .f32⟩
  | .hbm, ⟨60, _⟩ => ⟨S4x2000, .f32⟩
  | .hbm, ⟨61, _⟩ => ⟨S_, .f32⟩
  | .hbm, ⟨62, _⟩ => ⟨S4x2000, .f32⟩
  | .hbm, ⟨63, _⟩ => ⟨S4x2000, .f32⟩
  | .hbm, ⟨64, _⟩ => ⟨S4x2000, .f32⟩
  | .hbm, ⟨65, _⟩ => ⟨S_, .f32⟩
  | .hbm, ⟨66, _⟩ => ⟨S4x2000, .f32⟩
  | .hbm, ⟨67, _⟩ => ⟨S4x2000, .f32⟩
  | .hbm, ⟨68, _⟩ => ⟨S4x2000, .f32⟩
  | .hbm, ⟨69, _⟩ => ⟨S_, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | _, _ => ⟨S4x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  reducesTo_S4x256x384_S4x256_d2 : S4x256x384.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x384_0_1_2 : S4x256x1.BroadcastsInDim S4x256x384 (![0, 1, 2] : Fin 3 → Fin S4x256x384.rank)
  reducesTo_S4x384_S4_d1 : S4x384.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x384_0_1 : S4x1.BroadcastsInDim S4x384 (![0, 1] : Fin 2 → Fin S4x384.rank)
  reducesTo_S100000x384_S100000_d1 : S100000x384.ReducesTo [1] S100000
  bcast_S100000_S1x1x100000_2 : S100000.BroadcastsInDim S1x1x100000 (![2] : Fin 1 → Fin S1x1x100000.rank)
  bcast_S4x256x1_S4x256x100000_0_1_2 : S4x256x1.BroadcastsInDim S4x256x100000 (![0, 1, 2] : Fin 3 → Fin S4x256x100000.rank)
  bcast_S1x1x100000_S4x256x100000_0_1_2 : S1x1x100000.BroadcastsInDim S4x256x100000 (![0, 1, 2] : Fin 3 → Fin S4x256x100000.rank)
  bcast_S_S4x256x100000 : S_.BroadcastsInDim S4x256x100000 (![] : Fin 0 → Fin S4x256x100000.rank)
  reducesTo_S4x256x100000_S4x256_d2 : S4x256x100000.ReducesTo [2] S4x256
  reducesTo_S4x256_S4_d1 : S4x256.ReducesTo [1] S4
  reducesTo_S2000x384_S2000_d1 : S2000x384.ReducesTo [1] S2000
  bcast_S2000_S1x2000_1 : S2000.BroadcastsInDim S1x2000 (![1] : Fin 1 → Fin S1x2000.rank)
  bcast_S4x1_S4x2000_0_1 : S4x1.BroadcastsInDim S4x2000 (![0, 1] : Fin 2 → Fin S4x2000.rank)
  bcast_S1x2000_S4x2000_0_1 : S1x2000.BroadcastsInDim S4x2000 (![0, 1] : Fin 2 → Fin S4x2000.rank)
  transposes_S2000x384_S384x2000_1_0 : S2000x384.Transposes [1, 0] S384x2000
  bcast_S_S4x2000 : S_.BroadcastsInDim S4x2000 (![] : Fin 0 → Fin S4x2000.rank)
  reducesTo_S4x2000_S4_d1 : S4x2000.ReducesTo [1] S4
  bcast_S_S4 : S_.BroadcastsInDim S4 (![] : Fin 0 → Fin S4.rank)
  dot_S4x256x384_S100000x384_S4x256x100000_2_1_01_0_n_n_wf : DotDims.WF S4x256x384 S100000x384 S4x256x100000 [2] [1] [0, 1] [0] [] []
  dot_S4x384_S384x2000_S4x2000_1_0_0_1_n_n_wf : DotDims.WF S4x384 S384x2000 S4x2000 [1] [0] [0] [1] [] []

variable [Facts₀]

def dot_S4x256x384_S100000x384_S4x256x100000_2_1_01_0_n_n : DotDims S4x256x384 S100000x384 S4x256x100000 where
  lhsContracting := [2]
  rhsContracting := [1]
  lhsNonContracting := [0, 1]
  rhsNonContracting := [0]
  lhsBatch := []
  rhsBatch := []
  wf := dot_S4x256x384_S100000x384_S4x256x100000_2_1_01_0_n_n_wf
def dot_S4x384_S384x2000_S4x2000_1_0_0_1_n_n : DotDims S4x384 S384x2000 S4x2000 where
  lhsContracting := [1]
  rhsContracting := [0]
  lhsNonContracting := [0]
  rhsNonContracting := [1]
  lhsBatch := []
  rhsBatch := []
  wf := dot_S4x384_S384x2000_S4x2000_1_0_0_1_n_n_wf

class Facts : Prop extends Facts₀ where

variable [Facts]
-- ==== Proof.Pieces.lean ====
/-
  What one grid point leaves in the output's staging block, as a value.

  The body stores, at the first tile of a half, a block of +∞ and then — at every tile — the lane-wise minimum
  of what the block holds and the tile's own minimum. Read back through the covering stores this is ONE pure
  function `k0_pay2` of the two input blocks and of the block's previous contents: at a first tile the previous
  contents are the freshly stored +∞ block `k0_pay1`, elsewhere what the point before left.
-/
import proofs.«138544_j18674517803021_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a half: the block holding `xo` ends at the payload of the two input blocks and `xo`. -/
theorem out_B (c : Dev nD) (i : grid0.Coords) (a2 : Memref sig .tc .vmem S384x1024 .bf16) (h2 : a2.IsWhole)
    (a3 : Memref sig .tc .vmem S2000x384 .f32) (h3 : a3.IsWhole) (a4 : Memref sig .tc .vmem S1x1x1024 .f32) (h4 : a4.IsWhole)
    (hc : ¬cond0_0 i) (x0 : Vec F S384x1024 .bf16) (x1 : Vec F S2000x384 .f32) (xo : Vec F S1x1x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S384x1024) hz2,
    View.ld_unit_zero (S := S2000x384) hz2, View.ld_unit_zero (S := S1x1x1024) hz3]

/-- The first tile of a half: the block is first set to +∞ (`k0_pay1`), which the body reads back. -/
theorem out_A (c : Dev nD) (i : grid0.Coords) (a2 : Memref sig .tc .vmem S384x1024 .bf16) (h2 : a2.IsWhole)
    (a3 : Memref sig .tc .vmem S2000x384 .f32) (h3 : a3.IsWhole) (a4 : Memref sig .tc .vmem S1x1x1024 .f32) (h4 : a4.IsWhole)
    (hc : cond0_0 i) (x0 : Vec F S384x1024 .bf16) (x1 : Vec F S2000x384 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, View.ld_unit_zero (S := S384x1024) hz2,
    View.ld_unit_zero (S := S2000x384) hz2]

end Cert.KernelIdeal.Pieces

end
-- ==== Proof.TileMin.lean ====
/-
  One tile's contribution, read at a lane.

  For a tile `a` of 2000 bank rows (384 features each) and the resident block `pt` of 384 × 1024 normalized patch
  features, the body computes, for row `r` and lane `j`, the quantity
      part a pt r j = ∑ₖ a r k · a r k − 2 · ∑ₖ a r k · pt k j
  (the squared distance less the lane-only term), takes its minimum over the 2000 rows from +∞, and stores the
  lane-wise minimum of that and of what the block held. Every step is read at an index over the extended reals:
  a change of float format is the identity, the matrix product and the row sum are plain finite sums.
-/
import proofs.«138544_j18674517803021_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileMin

open Cert.KernelIdeal Cert.KernelIdeal.Gen

/-- The squared norm of row `r` of a tile. -/
def rowSq (a : FVec Ideal S2000x384 .f32) (r : Fin 2000) : EReal := ∑ k : Fin 384, a (ix2 r k) * a (ix2 r k)

/-- The product of row `r` of a tile with lane `j` of the patch block. -/
def rowDot (a : FVec Ideal S2000x384 .f32) (pt : FVec Ideal S384x1024 .bf16) (r : Fin 2000) (j : Fin 1024) : EReal :=
  ∑ k : Fin 384, a (ix2 r k) * pt (ix2 k j)

/-- What the tile minimizes over its rows: the row's squared norm less twice its product with the lane. -/
def part (a : FVec Ideal S2000x384 .f32) (pt : FVec Ideal S384x1024 .bf16) (r : Fin 2000) (j : Fin 1024) : EReal :=
  rowSq a r - Ideal.ofBits .f32 0x40000000#32 * rowDot a pt r j

/-- The row sums of squares, as the body computes them. -/
def sqVec (a : FVec Ideal S2000x384 .f32) : FVec Ideal S2000 .f32 :=
  multiReduction .add [1] S2000 (mulf a a) 0x00000000#32 reduces_S2000x384_S2000 (.inl rfl) rfl

/-- The cross products, as the body computes them. -/
def crossMat (a : FVec Ideal S2000x384 .f32) (pt : FVec Ideal S384x1024 .bf16) : FVec Ideal S2000x1024 .f32 :=
  matmul dot_S2000x384_S384x1024_S2000x1024_1_0_0_1_n_n none (truncf .bf16 a bitsLt_bf16_f32)
    (shapeCast S384x1024 pt shapeCasts_S384x1024_S384x1024) (constant S2000x1024 .f32 0x00000000#32)

/-- The tile's 2000 × 1024 table of partial distances, as the body computes it. -/
def partMat (a : FVec Ideal S2000x384 .f32) (pt : FVec Ideal S384x1024 .bf16) : FVec Ideal S2000x1024 .f32 :=
  subf (broadcastTo S2000x1024 (shapeCast S2000x1 (sqVec a) shapeCasts_S2000_S2000x1) broadcasts_S2000x1_S2000x1024)
    (mulf (broadcast S2000x1024 (Scalar.ofBits .f32 0x40000000#32)) (crossMat a pt))

/-- The tile's lane-wise minimum from +∞, as the body computes it. -/
def minVec (a : FVec Ideal S2000x384 .f32) (pt : FVec Ideal S384x1024 .bf16) : FVec Ideal S1024 .f32 :=
  multiReduction .minimumf [0] S1024 (partMat a pt) 0x7F800000#32 reduces_S2000x1024_S1024 (.inl rfl) rfl

/-- The stored payload is the lane-wise minimum of the block's contents and the tile's minimum, up to unit axes. -/
theorem pay2_eq (pt : FVec Ideal S384x1024 .bf16) (a : FVec Ideal S2000x384 .f32) (o : FVec Ideal S1x1x1024 .f32) :
    k0_pay2 (F := Ideal) pt a o
      = shapeCast S1x1x1024 (minimumf (shapeCast S1x1024 o shapeCasts_S1x1x1024_S1x1024)
          (shapeCast S1x1024 (minVec a pt) shapeCasts_S1024_S1x1024)) shapeCasts_S1x1024_S1x1x1024 := rfl

/-- The row sums of squares at a row. -/
theorem sqVec_apply (a : FVec Ideal S2000x384 .f32) (r : Fin 2000) : sqVec a (ix1 r) = rowSq a r := by
  unfold sqVec rowSq
  refine (Ideal.multiReduction_add_single (mulf a a) 0x00000000#32 reduces_S2000x384_S2000 (.inl rfl) rfl (ix1 r)).trans ?_
  refine Finset.sum_congr rfl fun k _ => ?_
  have e : reduces_S2000x384_S2000.lift (ix1 r) k = ix2 r k := funext fun c => Fin.ext (by
    match c with
    | ⟨0, _⟩ => rfl
    | ⟨1, _⟩ => rfl)
  rw [e]; rfl

theorem cross_lhs0 (i : S2000x1024.Idx) (q : dot_S2000x384_S384x1024_S2000x1024_1_0_0_1_n_n.contr.Idx) :
    (dot_S2000x384_S384x1024_S2000x1024_1_0_0_1_n_n.lhsIdx i q 0).val = (i 0).val := by
  unfold DotDims.lhsIdx
  rw [dif_neg (show ¬(0 : Fin S2000x384.rank) ∈ dot_S2000x384_S384x1024_S2000x1024_1_0_0_1_n_n.lhsBatch by decide), dif_pos (show (0 : Fin S2000x384.rank) ∈ dot_S2000x384_S384x1024_S2000x1024_1_0_0_1_n_n.lhsNonContracting by decide)]
  rfl
theorem cross_lhs1 (i : S2000x1024.Idx) (q : dot_S2000x384_S384x1024_S2000x1024_1_0_0_1_n_n.contr.Idx) :
    (dot_S2000x384_S384x1024_S2000x1024_1_0_0_1_n_n.lhsIdx i q 1).val = (q ⟨0, by decide⟩).val :=
  dot_S2000x384_S384x1024_S2000x1024_1_0_0_1_n_n.lhsIdx_val_of_single rfl i q
theorem cross_rhs0 (i : S2000x1024.Idx) (q : dot_S2000x384_S384x1024_S2000x1024_1_0_0_1_n_n.contr.Idx) :
    (dot_S2000x384_S384x1024_S2000x1024_1_0_0_1_n_n.rhsIdx i q 0).val = (q ⟨0, by decide⟩).val :=
  dot_S2000x384_S384x1024_S2000x1024_1_0_0_1_n_n.rhsIdx_val_of_single rfl i q
theorem cross_rhs1 (i : S2000x1024.Idx) (q : dot_S2000x384_S384x1024_S2000x1024_1_0_0_1_n_n.contr.Idx) :
    (dot_S2000x384_S384x1024_S2000x1024_1_0_0_1_n_n.rhsIdx i q 1).val = (i 1).val := by
  unfold DotDims.rhsIdx
  rw [dif_neg (show ¬(1 : Fin S384x1024.rank) ∈ dot_S2000x384_S384x1024_S2000x1024_1_0_0_1_n_n.rhsBatch by decide), dif_pos (show (1 : Fin S384x1024.rank) ∈ dot_S2000x384_S384x1024_S2000x1024_1_0_0_1_n_n.rhsNonContracting by decide)]
  rfl

/-- The cross products at a row and a lane: a change of float format is the identity. -/
theorem crossMat_apply (a : FVec Ideal S2000x384 .f32) (pt : FVec Ideal S384x1024 .bf16) (r : Fin 2000) (j : Fin 1024) :
    crossMat a pt (ix2 r j) = rowDot a pt r j := by
  unfold crossMat rowDot
  simp only [matmul]
  rw [Ideal.matmul_constant_zero_apply, ← Equiv.sum_comp (ValueIdx.contrEquiv1 dot_S2000x384_S384x1024_S2000x1024_1_0_0_1_n_n 384 rfl rfl).symm]
  refine Finset.sum_congr rfl fun k _ => ?_
  have hk := ValueIdx.contrEquiv1_symm_val dot_S2000x384_S384x1024_S2000x1024_1_0_0_1_n_n 384 rfl rfl k
  have el : dot_S2000x384_S384x1024_S2000x1024_1_0_0_1_n_n.lhsIdx (ix2 r j) ((ValueIdx.contrEquiv1 dot_S2000x384_S384x1024_S2000x1024_1_0_0_1_n_n 384 rfl rfl).symm k) = ix2 r k := funext fun c => Fin.ext (by
    match c with
    | ⟨0, _⟩ => exact cross_lhs0 _ _
    | ⟨1, _⟩ => exact (cross_lhs1 _ _).trans hk)
  have er : dot_S2000x384_S384x1024_S2000x1024_1_0_0_1_n_n.rhsIdx (ix2 r j) ((ValueIdx.contrEquiv1 dot_S2000x384_S384x1024_S2000x1024_1_0_0_1_n_n 384 rfl rfl).symm k) = ix2 k j := funext fun c => Fin.ext (by
    match c with
    | ⟨0, _⟩ => exact (cross_rhs0 _ _).trans hk
    | ⟨1, _⟩ => exact cross_rhs1 _ _)
  rw [el, er, shapeCast_self]
  rfl

/-- A vector cast to one column reads, at `(r, 0)`, the vector at `r`. -/
theorem col_apply (v : FVec Ideal S2000 .f32) (r : Fin 2000) (u : Fin 1) :
    shapeCast S2000x1 v shapeCasts_S2000_S2000x1 (ix2 r u) = v (ix1 r) :=
  shapeCast_apply v _ _ _ (by
    have hu : u.val = 0 := by omega
    rw [Shape.rowMajor_val_two, Shape.rowMajor_val_one]
    show r.val = r.val * 1 + u.val
    omega)

/-- A column broadcast along the lanes reads, at `(r, j)`, the column at `r`. -/
theorem colBroadcast_apply (v : FVec Ideal S2000x1 .f32) (r : Fin 2000) (j : Fin 1024) :
    broadcastTo S2000x1024 v broadcasts_S2000x1_S2000x1024 (ix2 r j) = v (ix2 r (0 : Fin 1)) := by
  refine broadcastTo_apply v _ (ix2 r j) (ix2 r (0 : Fin 1)) fun ax => ?_
  match ax with
  | ⟨0, _⟩ => rfl
  | ⟨1, _⟩ => rfl

/-- The table of partial distances at a row and a lane. -/
theorem partMat_apply (a : FVec Ideal S2000x384 .f32) (pt : FVec Ideal S384x1024 .bf16) (r : Fin 2000) (j : Fin 1024) :
    partMat a pt (ix2 r j) = part a pt r j := by
  unfold partMat part
  rw [subf_apply, mulf_apply, colBroadcast_apply, col_apply, sqVec_apply, crossMat_apply]
  rfl

/-- The tile's minimum at a lane: the infimum over the 2000 rows, folded from +∞. -/
theorem minVec_apply (a : FVec Ideal S2000x384 .f32) (pt : FVec Ideal S384x1024 .bf16) (j : Fin 1024) :
    minVec a pt (ix1 j) = (Finset.univ : Finset (Fin 2000)).fold min (Ideal.ofBits .f32 0x7F800000#32) (fun r => part a pt r j) := by
  unfold minVec
  refine (multiReduction_minimumf_eq_fold (partMat a pt) 0x7F800000#32 reduces_S2000x1024_S1024 (.inl rfl) rfl (ix1 j)).trans ?_
  refine (reduces_S2000x1024_S1024.fold_filter_drop_single _ _ (partMat a pt) (ix1 j)).trans ?_
  have e : (partMat a pt ∘ reduces_S2000x1024_S1024.lift (ix1 j)) = fun r : Fin 2000 => part a pt r j := funext fun (r : Fin 2000) => by
    have e2 : reduces_S2000x1024_S1024.lift (ix1 j) r = ix2 r j := funext fun c => Fin.ext (by
      match c with
      | ⟨0, _⟩ => rfl
      | ⟨1, _⟩ => rfl)
    show partMat a pt (reduces_S2000x1024_S1024.lift (ix1 j) r) = _
    rw [e2, partMat_apply]
  exact congrArg (fun f => Finset.fold min (Ideal.ofBits .f32 0x7F800000#32) f (Finset.univ : Finset (Fin 2000))) e

/-- The stored payload at a lane: the minimum of what the block held there and the tile's minimum. -/
theorem pay2_apply (pt : FVec Ideal S384x1024 .bf16) (a : FVec Ideal S2000x384 .f32) (o : FVec Ideal S1x1x1024 .f32) (j : Fin 1024) :
    k0_pay2 (F := Ideal) pt a o (ix3 (0 : Fin 1) (0 : Fin 1) j)
      = min (o (ix3 (0 : Fin 1) (0 : Fin 1) j))
          ((Finset.univ : Finset (Fin 2000)).fold min (Ideal.ofBits .f32 0x7F800000#32) (fun r => part a pt r j)) := by
  rw [pay2_eq]
  refine (shapeCast_ab_1ab_apply _ _ (0 : Fin 1) (0 : Fin 1) j).trans ?_
  rw [minimumf_apply, shapeCast_1ab_ab_apply, shapeCast_a_1a_apply, minVec_apply]

/-- The +∞ block stored at the first tile of a half, at a lane. -/
theorem pay1_apply (j : Fin 1024) : k0_pay1 (F := Ideal) (ix3 (0 : Fin 1) (0 : Fin 1) j) = Ideal.ofBits .f32 0x7F800000#32 := by
  unfold k0_pay1
  refine (shapeCast_ab_1ab_apply _ _ (0 : Fin 1) (0 : Fin 1) j).trans ?_
  rfl

end Cert.KernelIdeal.TileMin

end
-- ==== Proof.Blocks.lean ====
/-
  The input blocks a grid point reads, as entries of the arrays the region finds.

  Point `t` of the 2 × 25 grid (half `t / 25`, tile `t % 25`) reads rows 2000·t … 2000·t + 1999 of the memory bank
  and, at every point, the whole 384 × 1024 block of transposed patch features.
-/
import proofs.«138544_j18674517803021_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The bank's block index at point `t` is `t` itself along the rows. -/
theorem index_bank : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The patch block never moves. -/
theorem index_patch : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The output's block index at point `t` is its half. -/
theorem index_out : ∀ t : Fin cfg0.N, win0_2.index t (0 : Fin 3) = t.val / 25 ∧ win0_2.index t (1 : Fin 3) = 0 ∧ win0_2.index t (2 : Fin 3) = 0 :=
  (by decide +kernel : ∀ t : Fin grid0.N, win0_2.index t (0 : Fin 3) = t.val / 25 ∧ win0_2.index t (1 : Fin 3) = 0 ∧ win0_2.index t (2 : Fin 3) = 0)

/-- Row `r` of the bank block at point `t` is row `2000·t + r` of the bank. -/
theorem bank_apply (c : Dev nD) (t : Fin cfg0.N) (r : Fin 2000) (k : Fin 384) (i : Fin 100000) (hi : i.val = 2000 * t.val + r.val) :
    (iblk m c 1 t : Vec F S2000x384 .f32) (ix2 r k) = V m c main_arg2 (ix2 i k) := by
  unfold iblk
  rw [View.read_apply]
  show V m c main_arg2 _ = V m c main_arg2 _
  refine congrArg (V m c main_arg2) (funext fun a => Fin.ext ?_)
  match a with
  | ⟨0, _⟩ => show win0_1.index t 0 * 2000 + 1 * r.val = i.val; rw [(index_bank t).1]; omega
  | ⟨1, _⟩ => show win0_1.index t 1 * 384 + 1 * k.val = k.val; rw [(index_bank t).2]; omega

/-- The patch block at any point is the whole array. -/
theorem patch_apply (c : Dev nD) (t : Fin cfg0.N) (k : Fin 384) (j : Fin 1024) :
    (iblk m c 0 t : Vec F S384x1024 .bf16) (ix2 k j) = V m c main_v12 (ix2 k j) := by
  unfold iblk
  rw [View.read_apply]
  show V m c main_v12 _ = V m c main_v12 _
  refine congrArg (V m c main_v12) (funext fun a => Fin.ext ?_)
  match a with
  | ⟨0, _⟩ => show win0_0.index t 0 * 384 + 1 * k.val = k.val; rw [(index_patch t).1]; omega
  | ⟨1, _⟩ => show win0_0.index t 1 * 1024 + 1 * j.val = j.val; rw [(index_patch t).2]; omega

end Cert.KernelIdeal.Blocks

end
-- ==== Proof.LibMinTiles.lean ====
/-
  Finite minima over the extended reals, computed tile by tile.

  A minimum over N = H * K * R rows may be computed in H halves of K tiles of R rows,
  keeping a running minimum that is reset to the top element at the first tile of every
  half; the minimum over all rows is the minimum of the H values held at the last tile of
  each half. A monotone map (here: add a fixed term, clamp below at 0, take the square
  root) commutes with the minimum of a nonempty finite family, so it may be applied once
  to the minimum instead of to every row. Every statement holds for all extended reals:
  there is no finiteness hypothesis.
-/
import Idealize.ShloMosaic.PureOps.Ideal
import Mathlib.Data.Finset.Lattice.Fold
import Mathlib.Order.Monotone.Basic

noncomputable section

namespace Idealize.ShloMosaic.MinTiles

/-- the square root of the extended reals is monotone -/
theorem sqrt_mono : Monotone Ideal.sqrt := by
  intro x y hxy
  induction x using EReal.rec with
  | bot => simp
  | top =>
    have hy : y = ⊤ := top_le_iff.mp hxy
    subst hy
    exact le_rfl
  | coe a =>
    induction y using EReal.rec with
    | bot => exact absurd hxy (by simp)
    | top => simp
    | coe b =>
      have hab : a ≤ b := EReal.coe_le_coe_iff.mp hxy
      simp only [Ideal.sqrt_coe]
      split_ifs with h1 h2 h2
      · exact le_rfl
      · exact bot_le
      · exact absurd (lt_of_le_of_lt hab h2) h1
      · exact EReal.coe_le_coe_iff.mpr (Real.sqrt_le_sqrt hab)

/-- adding a fixed term, clamping below at 0 and taking the root is monotone -/
theorem clampRoot_mono (P : EReal) : Monotone fun x : EReal => Ideal.sqrt (max (x + P) 0) := by
  intro x y hxy
  exact sqrt_mono (max_le_max (add_le_add hxy le_rfl) le_rfl)

/-- a monotone map commutes with the infimum of a nonempty finite family -/
theorem map_inf_univ {ι : Type*} [Fintype ι] [Nonempty ι] {g : EReal → EReal} (hg : Monotone g)
    (f : ι → EReal) :
    Finset.univ.inf (fun i => g (f i)) = g (Finset.univ.inf f) := by
  obtain ⟨i₀, -, hi₀⟩ := Finset.exists_mem_eq_inf (Finset.univ : Finset ι) Finset.univ_nonempty f
  apply le_antisymm
  · rw [hi₀]
    exact Finset.inf_le (f := fun i => g (f i)) (Finset.mem_univ i₀)
  · exact Finset.le_inf fun i hi => hg (Finset.inf_le hi)

/-- a fold of min from ⊤ is the infimum -/
theorem fold_min_top {ι : Type*} (s : Finset ι) (f : ι → EReal) : s.fold min ⊤ f = s.inf f := by
  classical
  induction s using Finset.induction_on with
  | empty => simp
  | insert a s ha ih => rw [Finset.fold_insert ha, Finset.inf_insert, ih]

/-- min with ⊤ on the left is the identity -/
theorem top_min (x : EReal) : min ⊤ x = x := min_top_left x

/-- moving a lane-only term outside: subtraction on EReal is adding the negative, no finiteness -/
theorem add_sub_swap (P M c : EReal) : (P + M) - c = (M - c) + P := by
  rw [sub_eq_add_neg, sub_eq_add_neg, add_comm P M, add_right_comm]

/-- the running minimum kept over the K tiles of each half: reset (to ⊤) at every multiple of K -/
def runMin (K : ℕ) (T : ℕ → EReal) : ℕ → EReal
  | 0 => min ⊤ (T 0)
  | t + 1 => if (t + 1) % K = 0 then min ⊤ (T (t + 1)) else min (runMin K T t) (T (t + 1))

/-- at a multiple of K the running minimum is the tile's own value -/
theorem runMin_reset (K : ℕ) (T : ℕ → EReal) (t : ℕ) (ht : t % K = 0) : runMin K T t = T t := by
  cases t with
  | zero => simp [runMin]
  | succ t => simp [runMin, ht]

/-- off the multiples of K the running minimum takes in the next tile -/
theorem runMin_step (K : ℕ) (T : ℕ → EReal) (t : ℕ) (ht : (t + 1) % K ≠ 0) :
    runMin K T (t + 1) = min (runMin K T t) (T (t + 1)) := by
  simp [runMin, ht]

/-- within half h the running minimum at tile n is the minimum of the tiles 0..n of that half -/
theorem runMin_eq (K : ℕ) (T : ℕ → EReal) (h n : ℕ) (hn : n < K) :
    runMin K T (K * h + n) = (Finset.range (n + 1)).inf fun n' => T (K * h + n') := by
  induction n with
  | zero =>
    rw [runMin_reset K T (K * h + 0) (by simp)]
    simp
  | succ n ih =>
    have hmod : (K * h + n + 1) % K ≠ 0 := by
      have : (K * h + n + 1) % K = n + 1 := by
        rw [add_assoc, Nat.mul_add_mod]
        exact Nat.mod_eq_of_lt hn
      omega
    rw [← add_assoc, runMin_step K T (K * h + n) hmod, ih (Nat.lt_of_succ_lt hn),
      Finset.range_add_one (n := n + 1), Finset.inf_insert]
    exact min_comm _ _

/-- the last point of half h holds the minimum over the whole half -/
theorem runMin_last (K : ℕ) (hK : 0 < K) (T : ℕ → EReal) (h : ℕ) :
    runMin K T (K * h + (K - 1)) = (Finset.range K).inf fun n => T (K * h + n) := by
  rw [runMin_eq K T h (K - 1) (Nat.sub_lt hK Nat.one_pos), Nat.sub_add_cancel hK]

/-- the tiled minimum lies below the value at every row (half h, tile n, row r) -/
theorem inf_tiles_le (H K R : ℕ) (φ : ℕ → EReal) (h : Fin H) (n : ℕ) (hn : n < K) (r : Fin R) :
    ((Finset.univ : Finset (Fin H)).inf fun h => (Finset.range K).inf fun n =>
        (Finset.univ : Finset (Fin R)).inf fun r => φ (R * (K * h.val + n) + r.val))
      ≤ φ (R * (K * h.val + n) + r.val) := by
  refine le_trans (Finset.inf_le (Finset.mem_univ h)) ?_
  refine le_trans (Finset.inf_le (Finset.mem_range.mpr hn)) ?_
  exact Finset.inf_le (Finset.mem_univ r)

/-- H halves of K tiles of R rows enumerate the N = H*K*R rows -/
theorem inf_tiles (H K R N : ℕ) (hN : N = H * K * R) (φ : ℕ → EReal) :
    ((Finset.univ : Finset (Fin H)).inf fun h => (Finset.range K).inf fun n =>
        (Finset.univ : Finset (Fin R)).inf fun r => φ (R * (K * h.val + n) + r.val))
      = (Finset.univ : Finset (Fin N)).inf fun i => φ i.val := by
  subst hN
  apply le_antisymm
  · -- every row i is row i % R of tile (i / R) % K of half (i / R) / K
    refine Finset.le_inf fun i _ => ?_
    obtain ⟨i, hi⟩ := i
    have hR : 0 < R := by
      rcases Nat.eq_zero_or_pos R with h0 | h0
      · subst h0; simp at hi
      · exact h0
    have hK : 0 < K := by
      rcases Nat.eq_zero_or_pos K with h0 | h0
      · subst h0; simp at hi
      · exact h0
    obtain ⟨q, hq⟩ : ∃ q, q = i / R := ⟨_, rfl⟩
    obtain ⟨a, ha⟩ : ∃ a, a = q / K := ⟨_, rfl⟩
    obtain ⟨b, hb⟩ : ∃ b, b = q % K := ⟨_, rfl⟩
    obtain ⟨c, hc⟩ : ∃ c, c = i % R := ⟨_, rfl⟩
    have hqi : R * q + c = i := by rw [hq, hc]; exact Nat.div_add_mod i R
    have habq : K * a + b = q := by rw [ha, hb]; exact Nat.div_add_mod q K
    have hbK : b < K := by rw [hb]; exact Nat.mod_lt _ hK
    have hcR : c < R := by rw [hc]; exact Nat.mod_lt _ hR
    have haH : a < H := by
      by_contra hcon
      have hHa : H ≤ a := Nat.le_of_not_lt hcon
      have h1 : H * K * R ≤ a * K * R :=
        Nat.mul_le_mul_right R (Nat.mul_le_mul_right K hHa)
      have h2 : a * K * R ≤ q * R := by
        apply Nat.mul_le_mul_right
        rw [← habq, mul_comm a K]
        exact Nat.le_add_right _ _
      have h3 : q * R ≤ i := by
        rw [← hqi, mul_comm q R]
        exact Nat.le_add_right _ _
      omega
    have key := inf_tiles_le H K R φ ⟨a, haH⟩ b hbK ⟨c, hcR⟩
    have hidx : R * (K * a + b) + c = i := by rw [habq, hqi]
    simp only [hidx] at key
    exact key
  · -- every (half, tile, row) triple names a row below N
    refine Finset.le_inf fun h _ => Finset.le_inf fun n hn => Finset.le_inf fun r _ => ?_
    have hn' : n < K := Finset.mem_range.mp hn
    have hlt : R * (K * h.val + n) + r.val < H * K * R := by
      calc R * (K * h.val + n) + r.val < R * (K * h.val + n) + R := Nat.add_lt_add_left r.isLt _
        _ = R * (K * h.val + n + 1) := by rw [Nat.mul_add_one]
        _ ≤ R * (K * H) := by
            apply Nat.mul_le_mul_left
            calc K * h.val + n + 1 ≤ K * h.val + K := by omega
              _ = K * (h.val + 1) := by rw [Nat.mul_add_one]
              _ ≤ K * H := Nat.mul_le_mul_left _ h.isLt
        _ = H * K * R := by rw [mul_comm R, mul_comm K H]
    exact Finset.inf_le (f := fun i : Fin (H * K * R) => φ i.val)
      (Finset.mem_univ (⟨R * (K * h.val + n) + r.val, hlt⟩ : Fin (H * K * R)))

end Idealize.ShloMosaic.MinTiles
-- ==== Proof.Running.lean ====
/-
  The running minimum, point by point.

  After grid point `t` the output's staging block holds, at lane `j`, the minimum over the tiles of `t`'s half met so
  far of each tile's minimum over its 2000 bank rows of
      bankPart j i = |a_i|² − 2 · a_i · pt_j      (row i of the bank, lane j of the patch block).
  The block is reset to +∞ at the first tile of each half, so the value is the running minimum `runMin 25` of the
  tile minima: by induction on the point, each case of the body read through its payload.
-/
import proofs.«138544_j18674517803021_2_alg».proof.Proof.Pieces
import proofs.«138544_j18674517803021_2_alg».proof.Proof.TileMin
import proofs.«138544_j18674517803021_2_alg».proof.Proof.Blocks
import proofs.«138544_j18674517803021_2_alg».proof.Proof.LibMinTiles

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen

variable (m : (ℓ : Loc nD τ sig) → Buf (Elt Ideal) ℓ)

/-- The +∞ pattern is the top of the extended reals. -/
theorem inf_eq_top : Ideal.ofBits .f32 0x7F800000#32 = (⊤ : EReal) := by simp [Ideal.ofBits, Ideal.ieee]

/-- The memory bank as the region finds it. -/
def bank (c : Dev nD) : S100000x384.Idx → EReal := V m c main_arg2

/-- The transposed patch features (rounded to bf16: the identity here) as the region finds them. -/
def patchT (c : Dev nD) : S384x1024.Idx → EReal := V m c main_v12

/-- Bank row `i`'s row-dependent part of the squared distance to lane `j`, over the arrays the region finds. -/
def bankPart (c : Dev nD) (j : Fin 1024) (i : Fin 100000) : EReal :=
  (∑ k : Fin 384, bank m c (ix2 i k) * bank m c (ix2 i k))
    - Ideal.ofBits .f32 0x40000000#32 * ∑ k : Fin 384, bank m c (ix2 i k) * patchT m c (ix2 k j)

/-- The same over the natural numbers (⊤ past the bank's end). -/
def bankPartN (c : Dev nD) (j : Fin 1024) (i : ℕ) : EReal := if h : i < 100000 then bankPart m c j ⟨i, h⟩ else ⊤

/-- Tile `t`'s minimum at lane `j`. -/
def tile (c : Dev nD) (j : Fin 1024) (t : ℕ) : EReal :=
  (Finset.univ : Finset (Fin 2000)).inf fun r => bankPartN m c j (2000 * t + r.val)

/-- The body's tile minimum at point `t` is the minimum over rows 2000·t … 2000·t + 1999 of the bank. -/
theorem tile_eq (c : Dev nD) (j : Fin 1024) (t : Fin cfg0.N) :
    (Finset.univ : Finset (Fin 2000)).fold min (Ideal.ofBits .f32 0x7F800000#32)
        (fun r => TileMin.part (iblk m c 1 t) (iblk m c 0 t) r j) = tile m c j t.val := by
  have hN : t.val < 50 := lt_of_lt_of_eq t.isLt (show cfg0.N = 50 from N_0)
  rw [inf_eq_top, MinTiles.fold_min_top]
  unfold tile
  refine Finset.inf_congr rfl fun r _ => ?_
  have hr : r.val < 2000 := r.isLt
  have hi : 2000 * t.val + r.val < 100000 := by omega
  unfold bankPartN
  rw [dif_pos hi]
  unfold TileMin.part TileMin.rowSq TileMin.rowDot bankPart
  have e1 : ∀ k : Fin 384, (iblk m c 1 t : Vec Ideal S2000x384 .f32) (ix2 r k) = bank m c (ix2 ⟨2000 * t.val + r.val, hi⟩ k) :=
    fun k => Blocks.bank_apply m c t r k ⟨2000 * t.val + r.val, hi⟩ rfl
  have e2 : ∀ k : Fin 384, (iblk m c 0 t : Vec Ideal S384x1024 .bf16) (ix2 k j) = patchT m c (ix2 k j) :=
    fun k => Blocks.patch_apply m c t k j
  simp only [e1, e2]

/-- A first tile of a half leaves the tile's own minimum. -/
theorem step_A (c : Dev nD) (j : Fin 1024) (t : Fin cfg0.N) (h0 : t.val % 25 = 0) :
    outsAt0 m c t.val t.isLt (ix3 (0 : Fin 1) (0 : Fin 1) j) = tile m c j t.val := by
  rw [outsAt0_A m c t h0]
  refine (congrFun (Pieces.out_A (F := Ideal) c (grid0.coords t) (ms0_0 t) (hs0_0 t) (ms0_1 t) (hs0_1 t) (ms0_2 t) (hs0_2 t)
    ((hcond0_0 t).mpr h0) (iblk m c 0 t) (iblk m c 1 t)) (ix3 (0 : Fin 1) (0 : Fin 1) j)).trans ?_
  refine (TileMin.pay2_apply (iblk m c 0 t) (iblk m c 1 t) (k0_pay1 (F := Ideal)) j).trans ?_
  rw [TileMin.pay1_apply, tile_eq m c j t, inf_eq_top, MinTiles.top_min]

/-- A later tile takes the minimum with what the point before left. -/
theorem step_B (c : Dev nD) (j : Fin 1024) (t : Fin cfg0.N) (h0 : ¬t.val % 25 = 0) :
    outsAt0 m c t.val t.isLt (ix3 (0 : Fin 1) (0 : Fin 1) j)
      = min (outsAt0 m c (t.val - 1) (Nat.lt_of_le_of_lt (Nat.sub_le _ _) t.isLt) (ix3 (0 : Fin 1) (0 : Fin 1) j)) (tile m c j t.val) := by
  rw [outsAt0_B m c t h0]
  refine (congrFun (Pieces.out_B (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix3 (0 : Fin 1) (0 : Fin 1) j)).trans ?_
  refine (TileMin.pay2_apply (iblk m c 0 t) (iblk m c 1 t) (outsAt0 m c (t.val - 1) (Nat.lt_of_le_of_lt (Nat.sub_le _ _) t.isLt)) j).trans ?_
  rw [tile_eq m c j t]

/-- After point `n` the block holds, at lane `j`, the running minimum of the tile minima. -/
theorem outsAt_lane (c : Dev nD) (j : Fin 1024) : ∀ (n : ℕ) (hn : n < cfg0.N),
    outsAt0 m c n hn (ix3 (0 : Fin 1) (0 : Fin 1) j) = MinTiles.runMin 25 (tile m c j) n
  | 0, hn => by
    rw [MinTiles.runMin_reset 25 _ 0 rfl]
    exact step_A m c j ⟨0, hn⟩ rfl
  | n + 1, hn => by
    by_cases h0 : (n + 1) % 25 = 0
    · rw [MinTiles.runMin_reset 25 _ (n + 1) h0]
      exact step_A m c j ⟨n + 1, hn⟩ h0
    · rw [MinTiles.runMin_step 25 _ n h0, ← outsAt_lane c j n (Nat.lt_of_succ_lt hn)]
      exact step_B m c j ⟨n + 1, hn⟩ h0

end Cert.KernelIdeal.Running

end
-- ==== Proof.Halves.lean ====
/-
  What the region leaves in its result array.

  The output block of half `h` is written back once, after the half's last tile (points 24 and 49). By then the
  running minimum has seen all 25 tiles of the half, so entry (h, 0, j) of the 2 × 1 × 1024 result is the minimum
  over the half's 25 tiles of the tile minima at lane `j`; the two blocks tile the array.
-/
import proofs.«138544_j18674517803021_2_alg».proof.Proof.Running

noncomputable section

open Idealize.ShloMosaic Idealize.ShloMosaic.TcCoe Idealize.SL.Sem Idealize.ShloMosaic.ValueIdx
open Idealize.ShloMosaic.Pipeline (Dat)

namespace Cert.KernelIdeal.Halves

open Cert.KernelIdeal Cert.KernelIdeal.Gen Cert.KernelIdeal.Running

variable (m : (ℓ : Loc nD τ sig) → Buf (Elt Ideal) ℓ)

/-- The minimum over the 25 tiles of half `h` at lane `j`. -/
def halfMin (c : Dev nD) (h : Fin 2) (j : Fin 1024) : EReal :=
  (Finset.range 25).inf fun n => tile m c j (25 * h.val + n)

/-- The result array after the region: entry (h, 0, j) is half `h`'s minimum at lane `j`. -/
def finalArr (c : Dev nD) : S2x1x1024.Idx → EReal :=
  fun i => halfMin m c ⟨(i 0).val, (i 0).isLt⟩ ⟨(i 2).val, (i 2).isLt⟩

/-- At the last tile of a half the running minimum is the half's minimum. -/
theorem runMin_half (T : ℕ → EReal) (n : ℕ) (hn : n % 25 = 24) :
    MinTiles.runMin 25 T n = (Finset.range 25).inf fun k => T (25 * (n / 25) + k) := by
  have hn' : n = 25 * (n / 25) + (25 - 1) := by omega
  exact (congrArg (MinTiles.runMin 25 T) hn').trans (MinTiles.runMin_last 25 (by decide) T (n / 25))

/-- The block as the last tile of a half leaves it, at a lane. -/
theorem last_apply (c : Dev nD) (t : Fin cfg0.N) (h24 : t.val % 25 = 24) (hh : t.val / 25 < 2) (j : Fin 1024) :
    outsAt0 m c t.val t.isLt (ix3 (0 : Fin 1) (0 : Fin 1) j) = halfMin m c ⟨t.val / 25, hh⟩ j := by
  rw [outsAt_lane m c j t.val t.isLt, runMin_half _ _ h24]
  rfl

/-- What a flushing point writes back is its block of `finalArr`. -/
theorem flushed_eq (c : Dev nD) (t : Fin cfg0.N) (hf : (cfg0.win 2).flush t = true) :
    (dats m 0 c).flushed 2 t = ((cfg0.win 2).blk t).view.read (Elt Ideal) (finalArr m c) := by
  have hN : t.val < 50 := lt_of_lt_of_eq t.isLt (show cfg0.N = 50 from N_0)
  have h24 : t.val % 25 = 24 := (flush0_2 t).mp hf
  have hh : t.val / 25 < 2 := by omega
  show (cfg0.win 2).cut (grid0.coords t) ((dats m 0 c).after 2 t) = _
  rw [after0_2]
  funext (y : S1x1x1024.Idx)
  rw [View.read_apply]
  show outsAt0 m c t.val t.isLt y = finalArr m c (((cfg0.win 2).blk t).view.emb y)
  have y0 : (y 0).val < 1 := (y 0).isLt
  have y1 : (y 1).val < 1 := (y 1).isLt
  have y2 : (y 2).val < 1024 := (y 2).isLt
  obtain ⟨j, rfl⟩ : ∃ j : Fin 1024, y = ix3 (0 : Fin 1) (0 : Fin 1) j := ⟨⟨(y 2).val, y2⟩, funext fun a => Fin.ext (by
    match a with
    | ⟨0, _⟩ => show (y 0).val = 0; omega
    | ⟨1, _⟩ => show (y 1).val = 0; omega
    | ⟨2, _⟩ => rfl)⟩
  rw [last_apply m c t h24 hh j]
  unfold finalArr
  obtain ⟨e0, e1, e2⟩ := Blocks.index_out t
  have a0 : ((((cfg0.win 2).blk t).view.emb (ix3 (0 : Fin 1) (0 : Fin 1) j)) 0).val = t.val / 25 := by
    show win0_2.index t 0 * 1 + 1 * 0 = t.val / 25
    rw [e0]; omega
  have a2 : ((((cfg0.win 2).blk t).view.emb (ix3 (0 : Fin 1) (0 : Fin 1) j)) 2).val = j.val := by
    show win0_2.index t 2 * 1024 + 1 * j.val = j.val
    rw [e2]; omega
  congr 1
  · exact Fin.ext a0.symm
  · exact Fin.ext a2.symm

/-- The two blocks tile the result array. -/
theorem cover (c : Dev nD) (i : S2x1x1024.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1024 := (i 2).isLt
  have hlt : 25 * (i 0).val + 24 < cfg0.N := by rw [show cfg0.N = 50 from N_0]; omega
  refine ⟨⟨25 * (i 0).val + 24, hlt⟩, (flush0_2 _).mpr (by show (25 * (i 0).val + 24) % 25 = 24; omega), ?_⟩
  obtain ⟨e0, e1, e2⟩ := Blocks.index_out ⟨25 * (i 0).val + 24, hlt⟩
  have e0' : win0_2.index ⟨25 * (i 0).val + 24, hlt⟩ 0 = (i 0).val := by rw [e0]; show (25 * (i 0).val + 24) / 25 = _; omega
  show i ∈ ((View.whole main_v15).slice (win0_2.rect ⟨25 * (i 0).val + 24, hlt⟩)).set
  rw [View.set_slice_whole, Rect.mem_set_unit]
  intro a
  match a with
  | ⟨0, _⟩ =>
    show win0_2.index ⟨25 * (i 0).val + 24, hlt⟩ 0 * 1 ≤ (i 0).val ∧ (i 0).val < win0_2.index ⟨25 * (i 0).val + 24, hlt⟩ 0 * 1 + 1
    rw [e0']; omega
  | ⟨1, _⟩ =>
    show win0_2.index ⟨25 * (i 0).val + 24, hlt⟩ 1 * 1 ≤ (i 1).val ∧ (i 1).val < win0_2.index ⟨25 * (i 0).val + 24, hlt⟩ 1 * 1 + 1
    rw [e1]; omega
  | ⟨2, _⟩ =>
    show win0_2.index ⟨25 * (i 0).val + 24, hlt⟩ 2 * 1024 ≤ (i 2).val ∧ (i 2).val < win0_2.index ⟨25 * (i 0).val + 24, hlt⟩ 2 * 1024 + 1024
    rw [e2]; omega

/-- The result array ends at `finalArr`. -/
theorem final (c : Dev nD) : (dats m 0 c).arrAt 2 cfg0.N = finalArr m c :=
  (dats m 0 c).arrAt_eq_of_cover 2 (finalArr m c) (flushed_eq m c) (cover c)

end Cert.KernelIdeal.Halves

end
-- ==== Proof.Tail.lean ====
/-
  The host epilogue after the region, as one function.

  From the region's 2 × 1 × 1024 result, the lane-only squared norms, the normalized global features and the global
  bank, the lines after the region compute: the minimum over the two halves, plus the squared norm, clamped at 0,
  rooted, viewed 4 × 256, maximized over the 256 patches (the local score); the global distance by the same Gram
  identity minimized over the 2000 global rows; and their fixed convex combination.
-/
import proofs.«138544_j18674517803021_2_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]

/-- The per-patch local distance from the region's result `arr` and the squared norms `sq`. -/
def lanes (arr : FVec F S2x1x1024 .f32) (sq : FVec F S1024 .f32) : FVec F S4x256 .f32 :=
  shapeCast S4x256 (Host.sqrt (maximumf (addf (shapeCast S1024 (Host.reduce FloatOps.minimumf arr (constant (F := F) S_ .f32 0x7F800000#32) reducesTo_S2x1x1024_S1x1024_d0 h_S_) shapeCasts_S1x1024_S1024) sq)
    (broadcastInDim S1024 ![] bcast_S_S1024 (constant (F := F) S_ .f32 0x00000000#32)))) shapeCasts_S1024_S4x256

/-- The local score: the maximum over an image's 256 patches. -/
def localScore (d : FVec F S4x256 .f32) : FVec F S4 .f32 :=
  Host.reduce FloatOps.maximumf d (constant (F := F) S_ .f32 0xFF800000#32) reducesTo_S4x256_S4_d1 h_S_

/-- The global distance: the minimum over the global bank of the clamped, rooted Gram distance. -/
def globalDist (g : FVec F S4x384 .f32) (a3 : FVec F S2000x384 .f32) : FVec F S4 .f32 :=
  Host.reduce FloatOps.minimumf (Host.sqrt (maximumf (subf (addf
      (broadcastInDim S4x2000 ![0, 1] bcast_S4x1_S4x2000_0_1 (broadcastInDim S4x1 ![0] bcast_S4_S4x1_0
        (Host.reduceAdd (mulf g g) (constant (F := F) S_ .f32 0x00000000#32) reducesTo_S4x384_S4_d1 h_S_)))
      (broadcastInDim S4x2000 ![0, 1] bcast_S1x2000_S4x2000_0_1 (broadcastInDim S1x2000 ![1] bcast_S2000_S1x2000_1
        (Host.reduceAdd (mulf a3 a3) (constant (F := F) S_ .f32 0x00000000#32) reducesTo_S2000x384_S2000_d1 h_S_))))
    (mulf (broadcastInDim S4x2000 ![] bcast_S_S4x2000 (constant (F := F) S_ .f32 0x40000000#32))
      (Host.dotGeneral dot_S4x384_S384x2000_S4x2000_1_0_0_1_n_n none g (transpose S384x2000 [1, 0] a3 transposes_S2000x384_S384x2000_1_0))))
    (broadcastInDim S4x2000 ![] bcast_S_S4x2000 (constant (F := F) S_ .f32 0x00000000#32))))
    (constant (F := F) S_ .f32 0x7F800000#32) reducesTo_S4x2000_S4_d1 h_S_

/-- The anomaly score: 0.7 of the local score plus 0.3 of the global distance (as the float literals printed). -/
def score (ls gd : FVec F S4 .f32) : FVec F S4 .f32 :=
  addf (mulf (broadcastInDim S4 ![] bcast_S_S4 (constant (F := F) S_ .f32 0x3F333333#32)) ls)
    (mulf (broadcastInDim S4 ![] bcast_S_S4 (constant (F := F) S_ .f32 0x3E99999A#32)) gd)

set_option maxRecDepth 8192 in
set_option maxHeartbeats 4000000 in
/-- The result after the lines that follow the region, from any contents `W` of the buffers at the region's exit. -/
theorem after_tail (W : Valuation τ sig (Elt F)) :
    StableHlo.after (hostOps1 (F := F)) W (Proc.devRef .tc main_v46)
      = score (localScore (lanes (W (Proc.devRef .tc main_v15)) (W (Proc.devRef .tc main_v14))))
          (globalDist (W (Proc.devRef .tc main_v9)) (W (Proc.devRef .tc main_arg3))) := by
  after_results_simp <;> rfl

end Cert.KernelIdeal.Tail

end
-- ==== Proof.Prefix.lean ====
/-
  The host lines before the region, as functions of the arguments.

  Patches and global features are normalized by their Euclidean norm plus a small constant; the normalized patches
  are viewed 1024 × 384, transposed to 384 × 1024, rounded to bf16 for the kernel (the identity over the extended
  reals), and their squared norms per lane are summed along the 384 features.
-/
import proofs.«138544_j18674517803021_2_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Prefix

open Cert.KernelIdeal Cert.KernelIdeal.Gen

variable {F : FTy → Type} [FloatOps F]

/-- The patch features, each patch divided by its norm plus the constant. -/
def patches (x0 : FVec F S4x256x384 .f32) : FVec F S4x256x384 .f32 :=
  Host.divf x0 (broadcastInDim S4x256x384 ![0, 1, 2] bcast_S4x256x1_S4x256x384_0_1_2
    (addf (Host.sqrt (broadcastInDim S4x256x1 ![0, 1] bcast_S4x256_S4x256x1_0_1
        (Host.reduceAdd (mulf x0 x0) (constant (F := F) S_ .f32 0x00000000#32) reducesTo_S4x256x384_S4x256_d2 h_S_)))
      (broadcastInDim S4x256x1 ![] bcast_S_S4x256x1 (constant (F := F) S_ .f32 0x2B8CBCCC#32))))

/-- The global features, each image's divided by its norm plus the constant. -/
def globals (x1 : FVec F S4x384 .f32) : FVec F S4x384 .f32 :=
  Host.divf x1 (broadcastInDim S4x384 ![0, 1] bcast_S4x1_S4x384_0_1
    (addf (Host.sqrt (broadcastInDim S4x1 ![0] bcast_S4_S4x1_0
        (Host.reduceAdd (mulf x1 x1) (constant (F := F) S_ .f32 0x00000000#32) reducesTo_S4x384_S4_d1 h_S_)))
      (broadcastInDim S4x1 ![] bcast_S_S4x1 (constant (F := F) S_ .f32 0x2B8CBCCC#32))))

/-- Normalized patches as a 384 × 1024 matrix: feature by (image, patch) lane. -/
def patchT (p : FVec F S4x256x384 .f32) : FVec F S384x1024 .f32 :=
  transpose S384x1024 [1, 0] (shapeCast S1024x384 p shapeCasts_S4x256x384_S1024x384) transposes_S1024x384_S384x1024_1_0

/-- The same rounded to bf16, as the kernel's first operand. -/
def patchT16 (p : FVec F S4x256x384 .f32) : FVec F S384x1024 .bf16 := truncf .bf16 (patchT p) bitsLt_bf16_f32

/-- The squared norm of each lane. -/
def laneSq (p : FVec F S4x256x384 .f32) : FVec F S1024 .f32 :=
  Host.reduceAdd (mulf (patchT p) (patchT p)) (constant (F := F) S_ .f32 0x00000000#32) reducesTo_S384x1024_S1024_d0 h_S_

end Cert.KernelIdeal.Prefix

end
-- ==== Proof.KernelValue.lean ====
/-
  The kernel program's result, as one function of its arguments.

  The region finds the bank untouched and the transposed normalized patches; after it, the result array holds the two
  halves' minima, and the host epilogue turns them, with the lanes' squared norms and the global path, into the score.
-/
import proofs.«138544_j18674517803021_2_alg».proof.Proof.Halves
import proofs.«138544_j18674517803021_2_alg».proof.Proof.Tail
import proofs.«138544_j18674517803021_2_alg».proof.Proof.Prefix

noncomputable section

open Idealize.ShloMosaic Idealize.ShloMosaic.TcCoe Idealize.SL.Sem Idealize.ShloMosaic.StableHlo
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

set_option maxRecDepth 8192 in
/-- The region finds the transposed normalized patches (rounded to bf16). -/
theorem entry_patch (c : Dev nD) :
    (V m c main_v12 : FVec Ideal S384x1024 .bf16) = Prefix.patchT16 (F := Ideal) (Prefix.patches (F := Ideal) (m ((c : Thread nD τ).loc main_arg0))) := by
  dsimp only [V, V0]
  simp only [hostOps0, hostOps0_1, hostOps0_2, hostOps0_3, List.flatten_cons, List.flatten_nil, List.append_nil, List.cons_append,
    List.nil_append]
  after_results
  rfl

set_option maxRecDepth 8192 in
/-- The lanes' squared norms, as the lines before the region leave them. -/
theorem entry_laneSq (c : Dev nD) :
    (V m c main_v14 : FVec Ideal S1024 .f32) = Prefix.laneSq (F := Ideal) (Prefix.patches (F := Ideal) (m ((c : Thread nD τ).loc main_arg0))) := by
  dsimp only [V, V0]
  simp only [hostOps0, hostOps0_1, hostOps0_2, hostOps0_3, List.flatten_cons, List.flatten_nil, List.append_nil, List.cons_append,
    List.nil_append]
  after_results
  rfl

set_option maxRecDepth 8192 in
/-- The normalized global features, as the lines before the region leave them. -/
theorem entry_globals (c : Dev nD) :
    (V m c main_v9 : FVec Ideal S4x384 .f32) = Prefix.globals (F := Ideal) (m ((c : Thread nD τ).loc main_arg1)) := by
  dsimp only [V, V0]
  simp only [hostOps0, hostOps0_1, hostOps0_2, hostOps0_3, List.flatten_cons, List.flatten_nil, List.append_nil, List.cons_append,
    List.nil_append]
  after_results
  rfl

/-- The program's result on core `c`. -/
def result (c : Dev nD) : FVec Ideal S4 .f32 :=
  Tail.score (F := Ideal) (Tail.localScore (F := Ideal) (Tail.lanes (F := Ideal) (Halves.finalArr m c)
      (Prefix.laneSq (F := Ideal) (Prefix.patches (F := Ideal) (m ((c : Thread nD τ).loc main_arg0))))))
    (Tail.globalDist (F := Ideal) (Prefix.globals (F := Ideal) (m ((c : Thread nD τ).loc main_arg1))) (m ((c : Thread nD τ).loc main_arg3)))

/-- What the lines after the region leave in the result buffer. -/
theorem tail_value (c : Dev nD) :
    Pipeline.afterTail₀ cfgs (dats m) 0 (V0 m) [hostOps1] c main_v46 = result m c := by
  unfold Pipeline.afterTail₀
  show StableHlo.after hostOps1 _ (Proc.devRef .tc main_v46) = _
  rw [Tail.after_tail]
  have e15 := Pipeline.withArrays_arr spec0 launch0.win.arr_inj c (V0 m c) (fun w => (dats m 0 c).arrAt w cfg0.N) 2
  have e14 := Pipeline.withArrays_of_ne spec0 c (V0 m c) (fun w => (dats m 0 c).arrAt w cfg0.N) main_v14
    (by exact (by decide : ∀ w, Pipeline.arrRef spec0 w ≠ main_v14))
  have e9 := Pipeline.withArrays_of_ne spec0 c (V0 m c) (fun w => (dats m 0 c).arrAt w cfg0.N) main_v9
    (by exact (by decide : ∀ w, Pipeline.arrRef spec0 w ≠ main_v9))
  have e3 := Pipeline.withArrays_of_ne spec0 c (V0 m c) (fun w => (dats m 0 c).arrAt w cfg0.N) main_arg3
    (by exact (by decide : ∀ w, Pipeline.arrRef spec0 w ≠ main_arg3))
  unfold result
  refine congrArg₂ Tail.score (congrArg Tail.localScore (congrArg₂ Tail.lanes ?_ ?_)) (congrArg₂ Tail.globalDist ?_ ?_)
  · exact e15.trans (Halves.final m c)
  · exact e14.trans (entry_laneSq m c)
  · exact e9.trans (entry_globals m c)
  · exact e3.trans (V_main_arg3 m c)

set_option backward.isDefEq.respectTransparency.types false in
/-- Every weakly fair execution ends with the result buffer at `result` and the arguments as launched. -/
theorem run : θ_run defs (onTc (τ := τ) (main (F := Ideal))) ⟨m, fun _ => 0, ρ⟩ fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v46 (Pipeline.mem_restRefs_of main_v46 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.HostRead.lean ====
/-
  Host-side readings at an index, over the extended reals.

  Lane j = 256·b + q of the 384 × 1024 matrix of normalized patches is patch (b, q): the 4 × 256 × 384 tensor is
  viewed 1024 × 384 (row-major position (256·b + q)·384 + k on both sides) and transposed; rounding to the narrower
  format is the identity on extended reals. The lane's squared norm is a sum over the 384 features from a zero
  initial value, hence the patch's squared norm. The epilogue takes the minimum over the two halves (a fold of min
  from the top element, so the infimum of the two), views 1 × 1024 as 1024, adds the lane's term, clamps below at the
  broadcast zero, takes the root, and views the 1024 lanes as 4 × 256 (position 256·b + q).
-/
import proofs.«138544_j18674517803021_2_alg».proof.Proof.Tail
import proofs.«138544_j18674517803021_2_alg».proof.Proof.Prefix
import proofs.«138544_j18674517803021_2_alg».proof.Proof.LibMinTiles
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Idealize.ShloMosaic.Lib.IdealHost

noncomputable section

open Idealize.ShloMosaic Idealize.ShloMosaic.ValueIdx Cert.KernelIdeal Cert.KernelIdeal.Gen

namespace Cert.KernelIdeal.HostRead

/-- lane j = 256·b + q of the transposed matrix is patch (b, q) -/
theorem patchT_apply (p : FVec Ideal S4x256x384 .f32) (k : Fin 384) (b : Fin 4) (q : Fin 256) (j : Fin 1024) (hj : j.val = 256 * b.val + q.val) :
    Prefix.patchT (F := Ideal) p (ix2 k j) = p (ix3 b q k) := by
  unfold Prefix.patchT
  refine (transpose_ix2_apply (shapeCast S1024x384 p shapeCasts_S4x256x384_S1024x384)
    transposes_S1024x384_S384x1024_1_0 k j).trans ?_
  refine shapeCast_apply p shapeCasts_S4x256x384_S1024x384 (ix2 j k) (ix3 b q k) ?_
  -- both positions are (256·b + q)·384 + k
  rw [Shape.rowMajor_val_three, Shape.rowMajor_val_two]
  show (b.val * 256 + q.val) * 384 + k.val = j.val * 384 + k.val
  omega

/-- rounding to the narrower format is the identity on extended reals, so the rounded matrix reads the same patch -/
theorem patchT16_apply (p : FVec Ideal S4x256x384 .f32) (k : Fin 384) (b : Fin 4) (q : Fin 256) (j : Fin 1024) (hj : j.val = 256 * b.val + q.val) :
    Prefix.patchT16 (F := Ideal) p (ix2 k j) = p (ix3 b q k) := by
  unfold Prefix.patchT16
  exact (truncf_apply (Prefix.patchT (F := Ideal) p) bitsLt_bf16_f32 (ix2 k j)).trans (patchT_apply p k b q j hj)

/-- the lane's squared norm is the patch's -/
theorem laneSq_apply (p : FVec Ideal S4x256x384 .f32) (b : Fin 4) (q : Fin 256) (j : Fin 1024) (hj : j.val = 256 * b.val + q.val) :
    Prefix.laneSq (F := Ideal) p (ix1 j) = ∑ k : Fin 384, p (ix3 b q k) * p (ix3 b q k) := by
  unfold Prefix.laneSq
  have hR : S384x1024.Reduces [0] S1024 := by decide
  refine (hostReduceAdd_apply (mulf (Prefix.patchT (F := Ideal) p) (Prefix.patchT (F := Ideal) p))
    (constant (F := Ideal) S_ .f32 0x00000000#32) reducesTo_S384x1024_S1024_d0 h_S_ (ix1 j)).trans ?_
  refine (Ideal.hostReduceAdd_single reducesTo_S384x1024_S1024_d0 hR _ _ (ix1 j)).trans ?_
  rw [constant_apply, Ideal.ofBits_zero_f32, zero_add]
  refine Finset.sum_congr rfl fun k _ => ?_
  -- inserting the feature coordinate k over lane j gives (k, j)
  have e : hR.lift (ix1 j) k = ix2 (⟨k.val, k.isLt⟩ : Fin 384) j :=
    funext fun c => Fin.ext (by match c with | ⟨0, _⟩ => rfl | ⟨1, _⟩ => rfl)
  rw [e, mulf_apply, patchT_apply p ⟨k.val, k.isLt⟩ b q j hj]
  rfl

/-- the square root of a tensor, read at an index -/
theorem hostSqrt_apply {s : Shape} (v : FVec Ideal s .f32) (i : s.Idx) : Host.sqrt v i = Ideal.sqrt (v i) := rfl

/-- the minimum-reduce over the two halves from +∞, read at lane j, is the minimum of the two -/
theorem halves_min (arr : FVec Ideal S2x1x1024 .f32) (j : Fin 1024) :
    Host.reduce (FloatOps.minimumf (F := Ideal) (φ := .f32)) arr (constant (F := Ideal) S_ .f32 0x7F800000#32)
        reducesTo_S2x1x1024_S1x1024_d0 h_S_ (ix2 (0 : Fin 1) j)
      = (Finset.univ : Finset (Fin 2)).inf fun h => arr (ix3 h (0 : Fin 1) j) := by
  have hR : S2x1x1024.Reduces [0] S1x1024 := by decide
  refine (Host.reduce_eq_fold_single (FloatOps.minimumf (F := Ideal) (φ := .f32)) arr
    (constant (F := Ideal) S_ .f32 0x7F800000#32) reducesTo_S2x1x1024_S1x1024_d0 hR h_S_ (ix2 (0 : Fin 1) j)).trans ?_
  -- the initial value is the top element
  have htop : constant (F := Ideal) S_ .f32 0x7F800000#32 (Shape.Idx.first h_S_) = (⊤ : EReal) := by
    rw [constant_apply]
    simp [Ideal.ofBits, Ideal.ieee]
  rw [htop]
  -- inserting the half h over (0, j) gives (h, 0, j)
  have hfun : (arr ∘ hR.lift (ix2 (0 : Fin 1) j)) = fun (h : Fin 2) => arr (ix3 h (0 : Fin 1) j) :=
    funext fun h => congrArg arr
      (funext fun c => Fin.ext (by match c with | ⟨0, _⟩ => rfl | ⟨1, _⟩ => rfl | ⟨2, _⟩ => rfl))
  rw [hfun]
  exact MinTiles.fold_min_top (Finset.univ : Finset (Fin 2)) _

/-- the epilogue at patch (b, q): minimum over the two halves, plus the lane's term, clamped, rooted -/
theorem lanes_apply (arr : FVec Ideal S2x1x1024 .f32) (sq : FVec Ideal S1024 .f32) (b : Fin 4) (q : Fin 256) (j : Fin 1024) (hj : j.val = 256 * b.val + q.val) :
    Tail.lanes (F := Ideal) arr sq (ix2 b q)
      = Ideal.sqrt (max (((Finset.univ : Finset (Fin 2)).inf fun h => arr (ix3 h (0 : Fin 1) j)) + sq (ix1 j)) 0) := by
  unfold Tail.lanes
  -- patch (b, q) of the 4 × 256 view is lane 256·b + q
  refine (shapeCast_apply _ shapeCasts_S1024_S4x256 (ix2 b q) (ix1 j) ?_).trans ?_
  · rw [Shape.rowMajor_val_one, Shape.rowMajor_val_two]
    show j.val = b.val * 256 + q.val
    omega
  refine (hostSqrt_apply _ (ix1 j)).trans (congrArg Ideal.sqrt ?_)
  refine (maximumf_apply _ _ (ix1 j)).trans ?_
  refine congrArg₂ max ?_ ?_
  · refine (addf_apply _ _ (ix1 j)).trans (congrArg (· + sq (ix1 j)) ?_)
    exact (shapeCast_1a_a_apply _ shapeCasts_S1x1024_S1024 j).trans (halves_min arr j)
  · exact (broadcastInDim_scalar_apply bcast_S_S1024 _ (ix1 j)).trans
      ((constant_apply _ _).trans Ideal.ofBits_zero_f32)

end Cert.KernelIdeal.HostRead
-- ==== Proof.Spec.lean ====
/-
  The local anomaly distance, stated once over the extended reals.

  For normalized patch features `p` (4 images × 256 patches × 384 features) and a memory bank `a` of 100000 rows,
  the squared Euclidean distance from patch (b, q) to bank row n is, by the Gram identity,
      |p_bq|² + |a_n|² − 2 · p_bq · a_n .
  The reference clamps it at 0, takes the root, and minimizes over the bank (`refDist`). The kernel minimizes the
  row-dependent part |a_n|² − 2 · a_n · p_bq over the bank first and only then adds |p_bq|², clamps and takes the
  root (`kerDist`). The two agree for all extended reals: adding a fixed term, clamping and the root are monotone,
  a monotone map commutes with a minimum over a nonempty finite set, and the re-association of the sum needs only
  that addition on the extended reals is commutative and associative.
-/
import proofs.«138544_j18674517803021_2_alg».proof.Proof.LibMinTiles
import Idealize.ShloMosaic.Lib.ValueIdx

noncomputable section

open Idealize.ShloMosaic Idealize.ShloMosaic.ValueIdx

namespace Cert.Spec

/-- The factor 2 of the Gram identity, as the float literal both programs carry. -/
abbrev two : EReal := Ideal.ofBits .f32 0x40000000#32

/-- The squared norm of patch (b, q). -/
def patchSq (p : (⟨3, ![4, 256, 384]⟩ : Shape).Idx → EReal) (b : Fin 4) (q : Fin 256) : EReal :=
  ∑ k : Fin 384, p (ix3 b q k) * p (ix3 b q k)

/-- The squared norm of bank row n. -/
def bankSq (a : (⟨2, ![100000, 384]⟩ : Shape).Idx → EReal) (n : Fin 100000) : EReal :=
  ∑ k : Fin 384, a (ix2 n k) * a (ix2 n k)

/-- The inner product of patch (b, q) with bank row n. -/
def cross (p : (⟨3, ![4, 256, 384]⟩ : Shape).Idx → EReal) (a : (⟨2, ![100000, 384]⟩ : Shape).Idx → EReal)
    (b : Fin 4) (q : Fin 256) (n : Fin 100000) : EReal :=
  ∑ k : Fin 384, p (ix3 b q k) * a (ix2 n k)

/-- The reference: the distance to each bank row, clamped and rooted, then the minimum over the bank. -/
def refDist (p : (⟨3, ![4, 256, 384]⟩ : Shape).Idx → EReal) (a : (⟨2, ![100000, 384]⟩ : Shape).Idx → EReal)
    (b : Fin 4) (q : Fin 256) : EReal :=
  (Finset.univ : Finset (Fin 100000)).inf fun n =>
    Ideal.sqrt (max ((patchSq p b q + bankSq a n) - two * cross p a b q n) 0)

/-- The kernel: the minimum over the bank of the row-dependent part, then the patch's own term, the clamp and the root. -/
def kerDist (p : (⟨3, ![4, 256, 384]⟩ : Shape).Idx → EReal) (a : (⟨2, ![100000, 384]⟩ : Shape).Idx → EReal)
    (b : Fin 4) (q : Fin 256) : EReal :=
  Ideal.sqrt (max (((Finset.univ : Finset (Fin 100000)).inf fun n => bankSq a n - two * cross p a b q n) + patchSq p b q) 0)

/-- The two orders of operations give one distance. -/
theorem kerDist_eq_refDist (p : (⟨3, ![4, 256, 384]⟩ : Shape).Idx → EReal) (a : (⟨2, ![100000, 384]⟩ : Shape).Idx → EReal)
    (b : Fin 4) (q : Fin 256) : kerDist p a b q = refDist p a b q := by
  unfold kerDist refDist
  have h := MinTiles.map_inf_univ (ι := Fin 100000) (MinTiles.clampRoot_mono (patchSq p b q))
    (fun n => bankSq a n - two * cross p a b q n)
  refine h.symm.trans ?_
  refine Finset.inf_congr rfl fun n _ => ?_
  show Ideal.sqrt (max (bankSq a n - two * cross p a b q n + patchSq p b q) 0) = _
  rw [MinTiles.add_sub_swap]

end Cert.Spec

end
-- ==== Proof.Bridge.lean ====
/-
  The kernel's per-patch distance is the specification's.

  At patch (b, q), lane j = 256·b + q: the minimum over the two halves of the region's result is the minimum over
  the whole bank (2 halves × 25 tiles × 2000 rows enumerate its 100000 rows) of |a_i|² − 2 · a_i · p_bq — the
  kernel's lane j of the transposed patches is patch (b, q), and a product of extended reals commutes — so the
  epilogue gives `Spec.kerDist`, which is `Spec.refDist`.
-/
import proofs.«138544_j18674517803021_2_alg».proof.Proof.KernelValue
import proofs.«138544_j18674517803021_2_alg».proof.Proof.HostRead
import proofs.«138544_j18674517803021_2_alg».proof.Proof.Spec

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Running Cert.KernelIdeal.Halves

variable (m : (ℓ : Loc nD τ sig) → Buf (Elt Ideal) ℓ)

/-- The normalized patches of core `c`'s first argument. -/
abbrev P (c : Dev nD) : FVec Ideal S4x256x384 .f32 := Prefix.patches (F := Ideal) (m ((c : Thread nD τ).loc main_arg0))

/-- The patch features: core `c`'s first argument. -/
abbrev X0 (c : Dev nD) : FVec Ideal S4x256x384 .f32 := m ((c : Thread nD τ).loc main_arg0)

/-- The bank: core `c`'s third argument. -/
abbrev A (c : Dev nD) : FVec Ideal S100000x384 .f32 := m ((c : Thread nD τ).loc main_arg2)

/-- The minimum over the two halves of the region's result at lane `j` is the minimum over the whole bank. -/
theorem halves_inf (c : Dev nD) (j : Fin 1024) :
    ((Finset.univ : Finset (Fin 2)).inf fun h => finalArr m c (ix3 h (0 : Fin 1) j))
      = (Finset.univ : Finset (Fin 100000)).inf fun i => bankPart m c j i := by
  have e := MinTiles.inf_tiles 2 25 2000 100000 rfl (bankPartN m c j)
  refine Eq.trans ?_ (e.trans (Finset.inf_congr rfl fun i _ => ?_))
  · refine Finset.inf_congr rfl fun h _ => ?_
    rfl
  · unfold bankPartN
    rw [dif_pos i.isLt]

/-- Bank row `i`'s part at lane j = 256·b + q, over the arguments: the kernel multiplies row by patch, the
    specification patch by row. -/
theorem bankPart_eq (c : Dev nD) (b : Fin 4) (q : Fin 256) (j : Fin 1024) (hj : j.val = 256 * b.val + q.val) (i : Fin 100000) :
    bankPart m c j i = Spec.bankSq (A m c) i - Spec.two * Spec.cross (P m c) (A m c) b q i := by
  unfold bankPart bank patchT Spec.bankSq Spec.cross
  have ea : (V m c main_arg2 : FVec Ideal S100000x384 .f32) = A m c := V_main_arg2 m c
  have ep : ∀ k : Fin 384, (V m c main_v12 : FVec Ideal S384x1024 .bf16) (ix2 k j) = P m c (ix3 b q k) := fun k => by
    rw [KernelValue.entry_patch m c]
    exact HostRead.patchT16_apply (P m c) k b q j hj
  rw [ea]
  simp only [ep]
  refine congrArg (fun s => _ - Spec.two * s) (Finset.sum_congr rfl fun k _ => mul_comm _ _)

/-- The kernel's local distance at patch (b, q) is the reference's. -/
theorem lanes_eq (c : Dev nD) (b : Fin 4) (q : Fin 256) :
    Tail.lanes (F := Ideal) (finalArr m c) (Prefix.laneSq (F := Ideal) (P m c)) (ix2 b q) = Spec.refDist (P m c) (A m c) b q := by
  have hlt : 256 * b.val + q.val < 1024 := by have := b.isLt; have := q.isLt; omega
  rw [HostRead.lanes_apply _ _ b q ⟨256 * b.val + q.val, hlt⟩ rfl, HostRead.laneSq_apply _ b q ⟨256 * b.val + q.val, hlt⟩ rfl,
    halves_inf m c, ← Spec.kerDist_eq_refDist]
  unfold Spec.kerDist Spec.patchSq
  have e : (fun i : Fin 100000 => bankPart m c ⟨256 * b.val + q.val, hlt⟩ i)
      = fun n => Spec.bankSq (A m c) n - Spec.two * Spec.cross (P m c) (A m c) b q n :=
    funext fun i => bankPart_eq m c b q ⟨256 * b.val + q.val, hlt⟩ rfl i
  rw [e]

end Cert.KernelIdeal.Bridge

end
-- ==== Proof.RefDist.lean ====
/-
  The reference's minimum distance of a patch to the memory bank, read at one patch.

  With P the normalized patch features (4 images × 256 patches × 384 features) and A the bank of 100000 rows,
  the reference forms for every patch (b, q) and bank row n the Gram expression
      |P_bq|² + |A_n|² − 2 · (P_bq · A_n),
  clamps it below at 0, takes the root, and then takes the minimum over n starting from +∞.
  Read at (b, q, n): each sum of squares and the contraction is a finite sum over the 384 features from a zero
  initial value; the broadcast of |P_bq|² reads the same element at every n, the broadcast of |A_n|² the same
  element at every (b, q); the constants 2 and 0 are read as themselves. A minimum-reduce over one axis is, at
  (b, q), a fold of min over the coordinates n of that axis from its initial value, which here is the top element,
  so the fold is the infimum over the 100000 rows: the specified distance `refDist`.
  The normalized patches are kept as one opaque tensor throughout.
-/
import proofs.«138544_j18674517803021_2_alg».proof.Proof.Gen.ReferenceIdeal.Read
import proofs.«138544_j18674517803021_2_alg».proof.Proof.Spec
import Idealize.ShloMosaic.Lib.ValueIdx
import Idealize.ShloMosaic.PureOps.Ideal.Laws
import Idealize.ShloMosaic.PureOps.Reduce

noncomputable section

open Idealize.ShloMosaic Idealize.ShloMosaic.ValueIdx Cert.ReferenceIdeal Cert.ReferenceIdeal.Gen Cert.ReferenceIdeal.Read

namespace Cert.ReferenceIdeal.RefDist

/-- the squared norm of a patch, read from the reference's broadcast of its sum of squares -/
theorem patch_term (x0 : (⟨S4x256x384, .f32⟩ : BufTy).Contents (Elt Ideal)) (b : Fin 4) (q : Fin 256) (n : Fin 100000) :
    val_main_v16 (F := Ideal) x0 (ix3 b q n) = Cert.Spec.patchSq (val_main_v4 (F := Ideal) x0) b q := by
  rw [val_main_v16_apply, val_main_v14_apply, val_main_v11_apply, val_main_cst_1_apply, Ideal.ofBits_def,
    Ideal.ofBits_zero_f32, zero_add]
  unfold Cert.Spec.patchSq
  refine Finset.sum_congr rfl fun k _ => ?_
  have e : idx_main_v11 (idx_main_v14 (idx_main_v16 (ix3 b q n))) k = ix3 b q k :=
    funext fun a => Fin.ext (by match a with | ⟨0, _⟩ => rfl | ⟨1, _⟩ => rfl | ⟨2, _⟩ => rfl)
  rw [e, val_main_v10_apply, Ideal.mulf_def]

/-- the squared norm of a bank row, read from the reference's broadcast of its sum of squares -/
theorem bank_term (x2 : (⟨S100000x384, .f32⟩ : BufTy).Contents (Elt Ideal)) (b : Fin 4) (q : Fin 256) (n : Fin 100000) :
    val_main_v17 (F := Ideal) x2 (ix3 b q n) = Cert.Spec.bankSq x2 n := by
  rw [val_main_v17_apply, val_main_v15_apply, val_main_v13_apply, val_main_cst_2_apply, Ideal.ofBits_def,
    Ideal.ofBits_zero_f32, zero_add]
  unfold Cert.Spec.bankSq
  refine Finset.sum_congr rfl fun k _ => ?_
  have e : idx_main_v13 (idx_main_v15 (idx_main_v17 (ix3 b q n))) k = ix2 n k :=
    funext fun a => Fin.ext (by match a with | ⟨0, _⟩ => rfl | ⟨1, _⟩ => rfl)
  rw [e, val_main_v12_apply, Ideal.mulf_def]

/-- the inner product of a patch with a bank row, read from the reference's contraction -/
theorem cross_term (x0 : (⟨S4x256x384, .f32⟩ : BufTy).Contents (Elt Ideal)) (x2 : (⟨S100000x384, .f32⟩ : BufTy).Contents (Elt Ideal))
    (b : Fin 4) (q : Fin 256) (n : Fin 100000) :
    val_main_v19 (F := Ideal) x0 x2 (ix3 b q n) = Cert.Spec.cross (val_main_v4 (F := Ideal) x0) x2 b q n := by
  rw [val_main_v19_apply]
  unfold Cert.Spec.cross
  refine Finset.sum_congr rfl fun k _ => ?_
  have el : lidx_main_v19 (ix3 b q n) k = ix3 b q k :=
    funext fun a => Fin.ext (by match a with | ⟨0, _⟩ => rfl | ⟨1, _⟩ => rfl | ⟨2, _⟩ => rfl)
  have er : ridx_main_v19 (ix3 b q n) k = ix2 n k :=
    funext fun a => Fin.ext (by match a with | ⟨0, _⟩ => rfl | ⟨1, _⟩ => rfl)
  rw [el, er]

/-- one element of the reference's distance tensor: the clamped, rooted Gram expression -/
theorem ref_elem (x0 : (⟨S4x256x384, .f32⟩ : BufTy).Contents (Elt Ideal)) (x2 : (⟨S100000x384, .f32⟩ : BufTy).Contents (Elt Ideal))
    (b : Fin 4) (q : Fin 256) (n : Fin 100000) :
    val_main_v25 (F := Ideal) x0 x2 (ix3 b q n)
      = Ideal.sqrt (max ((Cert.Spec.patchSq (val_main_v4 (F := Ideal) x0) b q + Cert.Spec.bankSq x2 n)
          - Cert.Spec.two * Cert.Spec.cross (val_main_v4 (F := Ideal) x0) x2 b q n) 0) := by
  rw [val_main_v25_apply, val_main_v24_apply, val_main_v22_apply, val_main_v18_apply, val_main_v21_apply,
    patch_term, bank_term, cross_term, val_main_v20_apply, val_main_cst_3_apply, val_main_v23_apply,
    val_main_cst_4_apply]
  simp only [Ideal.hostUnary_sqrt_def, Ideal.maximumf_def, Ideal.subf_def, Ideal.addf_def, Ideal.mulf_def,
    Ideal.ofBits_def, Ideal.ofBits_zero_f32]

/-- the reference's minimum over the bank, read at patch (b, q), is the specified distance -/
theorem ref_lane (x0 : (⟨S4x256x384, .f32⟩ : BufTy).Contents (Elt Ideal)) (x2 : (⟨S100000x384, .f32⟩ : BufTy).Contents (Elt Ideal)) (b : Fin 4) (q : Fin 256) :
    Cert.ReferenceIdeal.Read.val_main_v26 (F := Ideal) x0 x2 (ix2 b q) = Cert.Spec.refDist (Cert.ReferenceIdeal.Read.val_main_v4 (F := Ideal) x0) x2 b q := by
  unfold val_main_v26
  have hR : S4x256x100000.Reduces [2] S4x256 := by decide
  refine (Host.reduce_eq_fold_single (FloatOps.minimumf (F := Ideal) (φ := .f32)) (val_main_v25 (F := Ideal) x0 x2)
    (val_main_cst_5 (F := Ideal)) reducesTo_S4x256x100000_S4x256_d2 hR h_S_ (ix2 b q)).trans ?_
  -- the initial value is the top element
  have htop : val_main_cst_5 (F := Ideal) (Shape.Idx.first h_S_) = (⊤ : EReal) := by
    rw [val_main_cst_5_apply, Ideal.ofBits_def]
    simp [Ideal.ofBits, Ideal.ieee]
  rw [htop]
  -- inserting the bank coordinate n into (b, q) gives (b, q, n)
  have e : ∀ n : Fin 100000, hR.lift (ix2 b q) n = ix3 b q n := fun n =>
    funext fun c => Fin.ext (by match c with | ⟨0, _⟩ => rfl | ⟨1, _⟩ => rfl | ⟨2, _⟩ => rfl)
  have hfun : (val_main_v25 (F := Ideal) x0 x2 ∘ hR.lift (ix2 b q))
      = fun (n : Fin 100000) => val_main_v25 (F := Ideal) x0 x2 (ix3 b q n) :=
    funext fun n => congrArg (val_main_v25 (F := Ideal) x0 x2) (e n)
  rw [hfun]
  unfold Cert.Spec.refDist
  refine (MinTiles.fold_min_top (Finset.univ : Finset (Fin 100000)) _).trans ?_
  exact Finset.inf_congr rfl fun n _ => ref_elem x0 x2 b q n

end Cert.ReferenceIdeal.RefDist
-- ==== Proof.lean ====
/-
  The certificate: a tiled, two-level minimum of partial squared distances, with the patch-only term, the clamp and
  the square root applied once after the minimum, against the reference's per-row distances minimized at once.

  Over the extended reals both programs give, for every image, 0.7 of the largest over its 256 patches of the
  smallest Euclidean distance from the normalized patch to the 100000 bank rows, plus 0.3 of the smallest distance of
  its normalized global feature to the 2000 global rows. The global path is the same sequence of host operations in
  both programs. For the local path the kernel minimizes |a_i|² − 2·a_i·p over the bank in 2 halves of 25 tiles of
  2000 rows (a running minimum reset at each half, the halves joined on the host) and adds |p|², clamps and takes
  the root afterwards; the reference does this per row before one minimum. They agree because a monotone map
  commutes with a finite nonempty minimum and addition of extended reals is commutative and associative; a change
  of float format is the identity, and sums and products are exact. No finiteness of the inputs is used.
  The three frames are the generated ones (the reference's is its run with the result dropped); the idealization
  rewrote nothing.
-/
import proofs.«138544_j18674517803021_2_alg».proof.Defs
import proofs.«138544_j18674517803021_2_alg».proof.Proof.Gen.Kernel
import proofs.«138544_j18674517803021_2_alg».proof.Proof.Gen.Kernel.Skeleton
import proofs.«138544_j18674517803021_2_alg».proof.Proof.Gen.Kernel.Launch
import proofs.«138544_j18674517803021_2_alg».proof.Proof.Gen.Kernel.Points
import proofs.«138544_j18674517803021_2_alg».proof.Proof.Gen.Kernel.Frame
import proofs.«138544_j18674517803021_2_alg».proof.Proof.Gen.KernelIdeal
import proofs.«138544_j18674517803021_2_alg».proof.Proof.Gen.KernelIdeal.Skeleton
import proofs.«138544_j18674517803021_2_alg».proof.Proof.Gen.KernelIdeal.Launch
import proofs.«138544_j18674517803021_2_alg».proof.Proof.Gen.KernelIdeal.Points
import proofs.«138544_j18674517803021_2_alg».proof.Proof.Gen.KernelIdeal.Frame
import proofs.«138544_j18674517803021_2_alg».proof.Proof.Gen.ReferenceIdeal
import proofs.«138544_j18674517803021_2_alg».proof.Proof.Gen.ReferenceIdeal.Run
import proofs.«138544_j18674517803021_2_alg».proof.Proof.Gen.ReferenceIdeal.Read
import proofs.«138544_j18674517803021_2_alg».proof.Proof.Gen.Pre_finite_inputs
import proofs.«138544_j18674517803021_2_alg».proof.Proof.Bridge
import proofs.«138544_j18674517803021_2_alg».proof.Proof.RefDist
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's normalized patches are the kernel program's: the same host operations. -/
theorem patches_eq (x0 : FVec Ideal Cert.KernelIdeal.S4x256x384 .f32) :
    Cert.ReferenceIdeal.Read.val_main_v4 (F := Ideal) x0 = Cert.KernelIdeal.Prefix.patches (F := Ideal) x0 := rfl

/-- The reference's global distance is the kernel program's: the same host operations. -/
theorem global_eq (x1 : FVec Ideal Cert.KernelIdeal.S4x384 .f32) (x3 : FVec Ideal Cert.KernelIdeal.S2000x384 .f32) :
    Cert.ReferenceIdeal.Read.val_main_v45 (F := Ideal) x1 x3
      = Cert.KernelIdeal.Tail.globalDist (F := Ideal) (Cert.KernelIdeal.Prefix.globals (F := Ideal) x1) x3 := rfl

/-- The reference's per-patch minimum distance is the kernel program's, patch by patch. -/
theorem local_eq (m : (ℓ : Loc Cert.KernelIdeal.nD Cert.KernelIdeal.τ Cert.KernelIdeal.sig) → Buf (Elt Ideal) ℓ) (c : Dev Cert.KernelIdeal.nD) :
    Cert.ReferenceIdeal.Read.val_main_v26 (F := Ideal) (Cert.KernelIdeal.Bridge.X0 m c) (Cert.KernelIdeal.Bridge.A m c)
      = Cert.KernelIdeal.Tail.lanes (F := Ideal) (Cert.KernelIdeal.Halves.finalArr m c)
          (Cert.KernelIdeal.Prefix.laneSq (F := Ideal) (Cert.KernelIdeal.Bridge.P m c)) := by
  funext i
  obtain ⟨b, q, rfl⟩ : ∃ (b : Fin 4) (q : Fin 256), i = ix2 b q := ⟨i 0, i 1, eq_ix2 i⟩
  rw [Cert.ReferenceIdeal.RefDist.ref_lane, Cert.KernelIdeal.Bridge.lanes_eq m c b q, patches_eq]

/-- The two programs' results are one function of the arguments. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v50 (F := Ideal) (Cert.KernelIdeal.Bridge.X0 m c)
        (m ((c : Thread Cert.KernelIdeal.nD Cert.KernelIdeal.τ).loc Cert.KernelIdeal.main_arg1)) (Cert.KernelIdeal.Bridge.A m c)
        (m ((c : Thread Cert.KernelIdeal.nD Cert.KernelIdeal.τ).loc Cert.KernelIdeal.main_arg3))
      = Cert.KernelIdeal.KernelValue.result m c := by
  unfold Cert.ReferenceIdeal.Read.val_main_v50 Cert.ReferenceIdeal.Read.val_main_v47 Cert.ReferenceIdeal.Read.val_main_v49
    Cert.ReferenceIdeal.Read.val_main_v27 Cert.KernelIdeal.KernelValue.result Cert.KernelIdeal.Tail.score Cert.KernelIdeal.Tail.localScore
  rw [local_eq m c, global_eq]
  rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end, from memories agreeing on the arguments, with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
